-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2 : Shape := ⟨2, ![4096, 2]⟩
abbrev S8x1024x1024 : Shape := ⟨3, ![8, 1024, 1024]⟩
abbrev S1024x1024 : Shape := ⟨2, ![1024, 1024]⟩
abbrev S1024x1 : Shape := ⟨2, ![1024, 1]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn_part2 {F : FTy → Type} [FloatOps F] (main_arg7 : FVec F S1024x1024 .f32) (main_arg8 : FVec F S1024x1 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1 .f32 := Host.absf main_arg8
  let main_cst_14 : FVec F S_ .f32 := constant S_ .f32 0x7F800000#32
  let main_v40 : FVec F S1024x1 .f32 := broadcastInDim S1024x1 ![] bcast_S_S1024x1 main_cst_14
  let main_v41 : IVec S1024x1 1 := cmpf .olt main_v39 main_v40
  let main_c_15 : IVec S_ 1 := constantI S_ 1 1#1
  let main_v42 : IVec S_ 1 := (fun x v => Host.reduce IntOp.andi x v reducesTo_S1024x1_S_d0_1 h_S_) main_v41 main_c_15
  let main_v43 : IVec S_ 1 := andi main_v38 main_v42
  main_v43

def fn_part1 {F : FTy → Type} [FloatOps F] (main_arg4 : FVec F S8x1024x1024 .f32) (main_arg5 : FVec F S1024x1024 .f32) (main_arg6 : FVec F S1024x1024 .f32) (main_arg7 : FVec F S1024x1024 .f32) (main_arg8 : FVec F S1024x1 .f32) (main_v13 : IVec S_ 1) (main_v16 : IVec S8x1024x1024 1) : IVec S_ 1 :=
  let main_c_5 : IVec S_ 1 := constantI S_ 1 1#1
  let main_v17 : IVec S_ 1 := (fun x v => Host.reduce IntOp.andi x v reducesTo_S8x1024x1024_S_d0_1_2 h_S_) main_v16 main_c_5
  let main_v18 : IVec S_ 1 := andi main_v13 main_v17
  let main_v19 : FVec F S8x1024x1024 .f32 := Host.absf main_arg4
  let main_cst_6 : FVec F S_ .f32 := constant S_ .f32 0x7F800000#32
  let main_v20 : FVec F S8x1024x1024 .f32 := broadcastInDim S8x1024x1024 ![] bcast_S_S8x1024x1024 main_cst_6
  let main_v21 : IVec S8x1024x1024 1 := cmpf .olt main_v19 main_v20
  let main_c_7 : IVec S_ 1 := constantI S_ 1 1#1
  let main_v22 : IVec S_ 1 := (fun x v => Host.reduce IntOp.andi x v reducesTo_S8x1024x1024_S_d0_1_2 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x2 .f32) (main_arg2 : FVec F S8x1024x1024 .f32) (main_arg3 : FVec F S8x1024x1024 .f32) (main_arg4 : FVec F S8x1024x1024 .f32) (main_arg5 : FVec F S1024x1024 .f32) (main_arg6 : FVec F S1024x1024 .f32) (main_arg7 : FVec F S1024x1024 .f32) (main_arg8 : FVec F S1024x1 .f32) (main_arg9 : IVec S4096x2 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S8x1024x1024 .f32 := Host.absf main_arg2
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S8x1024x1024 .f32 := Host.absf main_arg3
  let main_cst_4 : FVec F S_ .f32 := constant S_ .f32 0x7F800000#32
  let main_v15 : FVec F S8x1024x1024 .f32 := broadcastInDim S8x1024x1024 ![] bcast_S_S8x1024x1024 main_cst_4
  let main_v16 : IVec S8x1024x1024 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S4096x2 : Shape := ⟨2, ![4096, 2]⟩
abbrev S8x1024x1024 : Shape := ⟨3, ![8, 1024, 1024]⟩
abbrev S1024x1024 : Shape := ⟨2, ![1024, 1024]⟩
abbrev S1024x1 : Shape := ⟨2, ![1024, 1]⟩
abbrev S8192 : Shape := ⟨1, ![8192]⟩
abbrev S_ : Shape := ⟨0, ![]⟩
abbrev S8192x1 : Shape := ⟨2, ![8192, 1]⟩
abbrev S8192x1024 : Shape := ⟨2, ![8192, 1024]⟩
abbrev S8x1024x1 : Shape := ⟨3, ![8, 1024, 1]⟩
abbrev S1x256x1024 : Shape := ⟨3, ![1, 256, 1024]⟩
abbrev S1x1024x1024 : Shape := ⟨3, ![1, 1024, 1024]⟩
abbrev S1x256x1 : Shape := ⟨3, ![1, 256, 1]⟩
abbrev S256x1024 : Shape := ⟨2, ![256, 1024]⟩
abbrev S256x1 : Shape := ⟨2, ![256, 1]⟩
abbrev S4096x2x1024 : Shape := ⟨3, ![4096, 2, 1024]⟩
abbrev S512x1024 : Shape := ⟨2, ![512, 1024]⟩
abbrev S512x1 : Shape := ⟨2, ![512, 1]⟩

abbrev nBuf : Space → Nat
  | .hbm => 73
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x2, .f32⟩
  | .hbm, ⟨2, _⟩ => ⟨S8x1024x1024, .f32⟩
  | .hbm, ⟨3, _⟩ => ⟨S8x1024x1024, .f32⟩
  | .hbm, ⟨4, _⟩ => ⟨S8x1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1, .f32⟩
  | .hbm, ⟨9, _⟩ => ⟨S4096x2, .i32⟩
  | .hbm, ⟨10, _⟩ => ⟨S4096x1024, .bf16⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S8192x1, .i32⟩
  | .hbm, ⟨41, _⟩ => ⟨S8192x1024, .bf16⟩
  | .hbm, ⟨42, _⟩ => ⟨S8x1024x1024, .bf16⟩
  | .hbm, ⟨43, _⟩ => ⟨S8192, .f32⟩
  | .hbm, ⟨44, _⟩ => ⟨S_, .i32⟩
  | .hbm, ⟨45, _⟩ => ⟨S8192, .i32⟩
  | .hbm, ⟨46, _⟩ => ⟨S8192, .i1⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S8192, .i32⟩
  | .hbm, ⟨51, _⟩ => ⟨S8192x1, .i32⟩
  | .hbm, ⟨52, _⟩ => ⟨S8192, .f32⟩
  | .hbm, ⟨53, _⟩ => ⟨S8x1024x1, .f32⟩
  | .hbm, ⟨54, _⟩ => ⟨S8x1024x1024, .bf16⟩
  | .hbm, ⟨55, _⟩ => ⟨S8192x1024, .bf16⟩
  | .hbm, ⟨56, _⟩ => ⟨S8192, .i32⟩
  | .hbm, ⟨57, _⟩ => ⟨S8192, .i32⟩
  | .hbm, ⟨58, _⟩ => ⟨S8192, .i32⟩
  | .hbm, ⟨59, _⟩ => ⟨S_, .i32⟩
  | .hbm, ⟨60, _⟩ => ⟨S8192, .i32⟩
  | .hbm, ⟨61, _⟩ => ⟨S8192, .i1⟩
  | .hbm, ⟨62, _⟩ => ⟨S_, .i32⟩
  | .hbm, ⟨63, _⟩ => ⟨S8192, .i32⟩
  | .hbm, ⟨64, _⟩ => ⟨S8192, .i32⟩
  | .hbm, ⟨65, _⟩ => ⟨S8192, .i32⟩
  | .hbm, ⟨66, _⟩ => ⟨S8192x1, .i32⟩
  | .hbm, ⟨67, _⟩ => ⟨S8192x1024, .bf16⟩
  | .hbm, ⟨68, _⟩ => ⟨S4096x2x1024, .bf16⟩
  | .hbm, ⟨69, _⟩ => ⟨S4096x2x1024, .f32⟩
  | .hbm, ⟨70, _⟩ => ⟨S_, .f32⟩
  | .hbm, ⟨71, _⟩ => ⟨S4096x1024, .f32⟩
  | .hbm, ⟨72, _⟩ => ⟨S4096x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x256x1, .f32⟩
  | .local _ .vmem, ⟨9, _⟩ => ⟨S1x256x1, .f32⟩
  | .local _ .vmem, ⟨10, _⟩ => ⟨S1x256x1024, .bf16⟩
  | .local _ .vmem, ⟨11, _⟩ => ⟨S1x256x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1, .f32⟩
  | .local _ .vmem, ⟨20, _⟩ => ⟨S512x1024, .f32⟩
  | .local _ .vmem, ⟨21, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_v0 : Ref sig .tc := ⟨.hbm, 12, rfl⟩
abbrev main_call0_v1_0 : Ref sig .tc := ⟨.hbm, 13, rfl⟩
abbrev main_v2 : Ref sig .tc := ⟨.hbm, 14, rfl⟩
abbrev main_c : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_c : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_0 : Ref sig .tc := ⟨.hbm, 29, rfl⟩
abbrev main_call1_v12 : Ref sig .tc := ⟨.hbm, 30, rfl⟩
abbrev main_call1_v13 : Ref sig .tc := ⟨.hbm, 31, rfl⟩
abbrev main_v3 : Ref sig .tc := ⟨.hbm, 32, rfl⟩
abbrev main_c_0 : Ref sig .tc := ⟨.hbm, 33, rfl⟩
abbrev main_v4 : Ref sig .tc := ⟨.hbm, 34, rfl⟩
abbrev main_v5 : Ref sig .tc := ⟨.hbm, 35, rfl⟩
abbrev main_c_1 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_c_2 : Ref sig .tc := ⟨.hbm, 44, rfl⟩
abbrev main_v13 : Ref sig .tc := ⟨.hbm, 45, rfl⟩
abbrev main_v14 : Ref sig .tc := ⟨.hbm, 46, rfl⟩
abbrev main_c_3 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_call2_v0 : Ref sig .tc := ⟨.hbm, 56, rfl⟩
abbrev main_call2_v1_0 : Ref sig .tc := ⟨.hbm, 57, rfl⟩
abbrev main_v23 : Ref sig .tc := ⟨.hbm, 58, rfl⟩
abbrev main_c_4 : Ref sig .tc := ⟨.hbm, 59, rfl⟩
abbrev main_v24 : Ref sig .tc := ⟨.hbm, 60, rfl⟩
abbrev main_v25 : Ref sig .tc := ⟨.hbm, 61, rfl⟩
abbrev main_c_5 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst : Ref sig .tc := ⟨.hbm, 70, rfl⟩
abbrev main_v33 : Ref sig .tc := ⟨.hbm, 71, rfl⟩
abbrev main_v34 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  shapeCasts_S4096x2_S8192 : S4096x2.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  shapeCasts_S8192x1024_S8x1024x1024 : S8192x1024.ShapeCasts S8x1024x1024
  shapeCasts_S8192_S8x1024x1 : S8192.ShapeCasts S8x1024x1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x1024 : S256x1.Broadcasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  shapeCasts_S8x1024x1024_S8192x1024 : S8x1024x1024.ShapeCasts S8192x1024
  shapeCasts_S8192x1024_S4096x2x1024 : S8192x1024.ShapeCasts S4096x2x1024
  reducesTo_S4096x2x1024_S4096x1024_d1 : S4096x2x1024.ReducesTo [1] S4096x1024
  h_S_ : 0 < S_.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  broadcasts_S512x1_S512x1024 : S512x1.Broadcasts S512x1024
  gather_S4096x1024_S8192x1_S8192x1024_1_0_n_n_0_1_11024_wf : GatherDims.WF S4096x1024 S8192x1 S8192x1024 [1] [0] [] [0] [] 1 ![1, 1024]
  gather_S8192_S8192x1_S8192_n_0_n_n_0_1_1_wf : GatherDims.WF S8192 S8192x1 S8192 [] [0] [] [0] [] 1 ![1]
  dot_S256x1024_S1024x1024_S256x1024_1_0_0_1_n_n_wf : DotDims.WF S256x1024 S1024x1024 S256x1024 [1] [0] [0] [1] [] []
  gather_S8192x1024_S8192x1_S8192x1024_1_0_n_n_0_1_11024_wf : GatherDims.WF S8192x1024 S8192x1 S8192x1024 [1] [0] [] [0] [] 1 ![1, 1024]
  dot_S512x1024_S1024x1024_S512x1024_1_0_0_1_n_n_wf : DotDims.WF S512x1024 S1024x1024 S512x1024 [1] [0] [0] [1] [] []
  dot_S512x1024_S1024x1_S512x1_1_0_0_1_n_n_wf : DotDims.WF S512x1024 S1024x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x1024x1024.size a
  hwx0_0 : ∀ i : grid0.Coords, EltTy.bits .bf16 = 32 ∨ (Rect.block (s := S8x1024x1024) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x1024.size a
  hwx0_1 : ∀ i : grid0.Coords, EltTy.bits .f32 = 32 ∨ (Rect.block (s := S8x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x1024.size a
  hwx0_2 : ∀ i : grid0.Coords, EltTy.bits .f32 = 32 ∨ (Rect.block (s := S8x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x1024.size a
  hwx0_3 : ∀ i : grid0.Coords, EltTy.bits .f32 = 32 ∨ (Rect.block (s := S8x1024x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S8x1024x1.size a
  hwx0_4 : ∀ i : grid0.Coords, EltTy.bits .f32 = 32 ∨ (Rect.block (s := S8x1024x1) S1x256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S8x1024x1024.size a
  hwx0_5 : ∀ i : grid0.Coords, EltTy.bits .bf16 = 32 ∨ (Rect.block (s := S8x1024x1024) S1x256x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .f32 = 32 ∨ (Rect.block (s := S4096x1024) S512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .f32 = 32 ∨ (Rect.block (s := S1024x1024) S1024x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .f32 = 32 ∨ (Rect.block (s := S1024x1024) S1024x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .f32 = 32 ∨ (Rect.block (s := S1024x1024) S1024x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S1024x1.size a
  hwx1_5 : ∀ i : grid1.Coords, EltTy.bits .f32 = 32 ∨ (Rect.block (s := S1024x1) S1024x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1024.size a ≤ S4096x1024.size a
  hwx1_6 : ∀ i : grid1.Coords, EltTy.bits .f32 = 32 ∨ (Rect.block (s := S4096x1024) S512x1024.size (cc1_transform_6 i) (hinb1_6 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S4096x1024_S8192x1_S8192x1024_1_0_n_n_0_1_11024 : GatherDims S4096x1024 S8192x1 S8192x1024 where
  offsetDims := [1]
  collapsedSliceDims := [0]
  operandBatchingDims := []
  startIndicesBatchingDims := []
  startIndexMap := [0]
  indexVectorDim := 1
  sliceSizes := ![1, 1024]
  wf := gather_S4096x1024_S8192x1_S8192x1024_1_0_n_n_0_1_11024_wf
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_v11) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S1024x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4096x2 : Shape := ⟨2, ![4096, 2]⟩
abbrev S8x1024x1024 : Shape := ⟨3, ![8, 1024, 1024]⟩
abbrev S1024x1024 : Shape := ⟨2, ![1024, 1024]⟩
abbrev S1024x1 : Shape := ⟨2, ![1024, 1]⟩
abbrev S8192 : Shape := ⟨1, ![8192]⟩
abbrev S4096x2x1024 : Shape := ⟨3, ![4096, 2, 1024]⟩
abbrev S8192x1024 : Shape := ⟨2, ![8192, 1024]⟩
abbrev S_ : Shape := ⟨0, ![]⟩
abbrev S8192x1 : Shape := ⟨2, ![8192, 1]⟩
abbrev S4096x2x1 : Shape := ⟨3, ![4096, 2, 1]⟩
abbrev S4096x1 : Shape := ⟨2, ![4096, 1]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2, .f32⟩
  | .hbm, ⟨2, _⟩ => ⟨S8x1024x1024, .f32⟩
  | .hbm, ⟨3, _⟩ => ⟨S8x1024x1024, .f32⟩
  | .hbm, ⟨4, _⟩ => ⟨S8x1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1, .f32⟩
  | .hbm, ⟨9, _⟩ => ⟨S4096x2, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S4096x2x1024, .f32⟩
  | .hbm, ⟨15, _⟩ => ⟨S8192x1024, .f32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S8192x1, .i32⟩
  | .hbm, ⟨24, _⟩ => ⟨S8192x1024, .f32⟩
  | .hbm, ⟨25, _⟩ => ⟨S8x1024x1024, .f32⟩
  | .hbm, ⟨26, _⟩ => ⟨S8x1024x1024, .f32⟩
  | .hbm, ⟨27, _⟩ => ⟨S8x1024x1024, .f32⟩
  | .hbm, ⟨28, _⟩ => ⟨S8x1024x1024, .f32⟩
  | .hbm, ⟨29, _⟩ => ⟨S_, .f32⟩
  | .hbm, ⟨30, _⟩ => ⟨S8x1024x1024, .f32⟩
  | .hbm, ⟨31, _⟩ => ⟨S8x1024x1024, .f32⟩
  | .hbm, ⟨32, _⟩ => ⟨S_, .f32⟩
  | .hbm, ⟨33, _⟩ => ⟨S8x1024x1024, .f32⟩
  | .hbm, ⟨34, _⟩ => ⟨S8x1024x1024, .f32⟩
  | .hbm, ⟨35, _⟩ => ⟨S8x1024x1024, .f32⟩
  | .hbm, ⟨36, _⟩ => ⟨S8x1024x1024, .f32⟩
  | .hbm, ⟨37, _⟩ => ⟨S8x1024x1024, .f32⟩
  | .hbm, ⟨38, _⟩ => ⟨S8x1024x1024, .f32⟩
  | .hbm, ⟨39, _⟩ => ⟨S8192x1024, .f32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .i32⟩
  | .hbm, ⟨50, _⟩ => ⟨S8192x1, .i32⟩
  | .hbm, ⟨51, _⟩ => ⟨S8192x1024, .f32⟩
  | .hbm, ⟨52, _⟩ => ⟨S4096x2x1024, .f32⟩
  | .hbm, ⟨53, _⟩ => ⟨S4096x2x1, .f32⟩
  | .hbm, ⟨54, _⟩ => ⟨S4096x2x1024, .f32⟩
  | .hbm, ⟨55, _⟩ => ⟨S4096x2x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_v1_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_v0 : Ref sig .tc := ⟨.hbm, 40, rfl⟩
abbrev main_call1_v1_0 : Ref sig .tc := ⟨.hbm, 41, rfl⟩
abbrev main_v24 : Ref sig .tc := ⟨.hbm, 42, rfl⟩
abbrev main_c_2 : Ref sig .tc := ⟨.hbm, 43, rfl⟩
abbrev main_v25 : Ref sig .tc := ⟨.hbm, 44, rfl⟩
abbrev main_v26 : Ref sig .tc := ⟨.hbm, 45, rfl⟩
abbrev main_c_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  shapeCasts_S4096x2_S8192 : S4096x2.ShapeCasts S8192
  bcast_S4096x1024_S4096x2x1024_0_2 : S4096x1024.BroadcastsInDim S4096x2x1024 (![0, 2] : Fin 2 → Fin S4096x2x1024.rank)
  shapeCasts_S4096x2x1024_S8192x1024 : S4096x2x1024.ShapeCasts S8192x1024
  bcast_S_S8192 : S_.BroadcastsInDim S8192 (![] : Fin 0 → Fin S8192.rank)
  bcast_S8192_S8192x1_0 : S8192.BroadcastsInDim S8192x1 (![0] : Fin 1 → Fin S8192x1.rank)
  shapeCasts_S8192x1024_S8x1024x1024 : S8192x1024.ShapeCasts S8x1024x1024
  bcast_S_S8x1024x1024 : S_.BroadcastsInDim S8x1024x1024 (![] : Fin 0 → Fin S8x1024x1024.rank)
  shapeCasts_S8x1024x1024_S8192x1024 : S8x1024x1024.ShapeCasts S8192x1024
  shapeCasts_S8192x1024_S4096x2x1024 : S8192x1024.ShapeCasts S4096x2x1024
  bcast_S4096x2_S4096x2x1_0_1 : S4096x2.BroadcastsInDim S4096x2x1 (![0, 1] : Fin 2 → Fin S4096x2x1.rank)
  bcast_S4096x2x1_S4096x2x1024_0_1_2 : S4096x2x1.BroadcastsInDim S4096x2x1024 (![0, 1, 2] : Fin 3 → Fin S4096x2x1024.rank)
  reducesTo_S4096x2x1024_S4096x1024_d1 : S4096x2x1024.ReducesTo [1] S4096x1024
  h_S_ : 0 < S_.numel
  bcast_S_S4096x1024 : S_.BroadcastsInDim S4096x1024 (![] : Fin 0 → Fin S4096x1024.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  gather_S8192x1024_S8192x1_S8192x1024_1_0_n_n_0_1_11024_wf : GatherDims.WF S8192x1024 S8192x1 S8192x1024 [1] [0] [] [0] [] 1 ![1, 1024]
  dot_S8x1024x1024_S8x1024x1024_S8x1024x1024_2_1_1_2_0_0_wf : DotDims.WF S8x1024x1024 S8x1024x1024 S8x1024x1024 [2] [1] [1] [2] [0] [0]
  dot_S4096x1024_S1024x1024_S4096x1024_1_0_0_1_n_n_wf : DotDims.WF S4096x1024 S1024x1024 S4096x1024 [1] [0] [0] [1] [] []
  dot_S4096x1024_S1024x1_S4096x1_1_0_0_1_n_n_wf : DotDims.WF S4096x1024 S1024x1 S4096x1 [1] [0] [0] [1] [] []

variable [Facts₀]

def comparator_i32_i32_d0 : BitVec 32 × BitVec 32 → BitVec 32 × BitVec 32 → BitVec 1 :=
  fun l r =>
    let v2 := IntOp.cmpi .slt l.1 r.1
    v2
def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf
def dot_S8x1024x1024_S8x1024x1024_S8x1024x1024_2_1_1_2_0_0 : DotDims S8x1024x1024 S8x1024x1024 S8x1024x1024 where
  lhsContracting := [2]
  rhsContracting := [1]
  lhsNonContracting := [1]
  rhsNonContracting := [2]
  lhsBatch := [0]
  rhsBatch := [0]
  wf := dot_S8x1024x1024_S8x1024x1024_S8x1024x1024_2_1_1_2_0_0_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf

class Facts : Prop extends Facts₀ where

variable [Facts]
-- ==== Proof.KRun.lean ====
/-
  The kernel program's run with its result named.

  The program is ten segments: stretches of host operations around two kernel regions. Each segment maps the buffer
  contents at its entry to the contents at its exit; the run ends with every unscoped buffer at the last segment's
  exit contents. Here that statement is kept for the result buffer too, beside the arguments.
-/
import proofs.«157043_j62388694942421_2_alg».proof.Proof.Gen.KernelIdeal.Frame

set_option maxRecDepth 16384

noncomputable section

namespace Cert.KernelIdeal.GenRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result array named: every weakly fair execution ends with the result buffer at the contents the
    fold through the segments leaves there, and the arguments as launched. -/
theorem run_named : θ_run defs (onTc (τ := τ) (main (F := F))) ⟨m, fun _ => 0, ρ⟩ (fun r => ∀ c : Dev nD,
      r.2.mem ((c.tc : Thread nD τ).loc main_v34) = W10 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v34 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.GenRun

end
-- ==== Proof.LibDotRows.lean ====
/-
  A plain matrix product, read one entry at a time, is a row against the columns.

  For a contraction of an [M, K] operand's second axis with a [K, N] operand's first axis — the dimension numbers of a
  plain matrix product — the sum over the contraction index that a matrix product denotes on the extended reals is
  the sum over k of the left operand's entry (i, k) times the right operand's entry (k, j). The lemma is stated for
  any dimension record whose four coordinate maps are the plain ones (the hypotheses), so that it applies both to a
  kernel's matrix unit over one block and to a host contraction over the whole array; what follows from it is that
  entry (i, j) depends on the left operand through its row i alone.
-/
import Idealize.ShloMosaic.PureOps.Ideal.Laws
import Idealize.ShloMosaic.Lib.ValueIdx

noncomputable section

namespace Cert.LibDotRows

open Idealize.ShloMosaic Idealize.ShloMosaic.ValueIdx

/-- The row `x` against column `q` of `w`: the sum over k of x k · w (k, q), on the extended reals. -/
def rowDot {K N : Nat} (x : Fin K → EReal) (w : (⟨2, ![K, N]⟩ : Shape).Idx → EReal) (q : Fin N) : EReal :=
  ∑ k : Fin K, x k * w (ix2 k q)

/-- The sum over a plain contraction's index is the row sum: the left operand is read along row `i 0`, the right
    operand down column `i 1`. The four hypotheses say that the record's coordinate maps are the plain ones. -/
theorem sum_contr_eq_rowDot {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (i : (⟨2, ![M, N]⟩ : Shape).Idx) :
    ∑ k : D.contr.Idx, l (D.lhsIdx i k) * r (D.rhsIdx i k) = rowDot (fun k => l (ix2 (i 0) k)) r (i 1) := by
  unfold rowDot
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

/-- Two rows that agree entry by entry have the same product with every column. -/
theorem rowDot_congr {K N : Nat} {x y : Fin K → EReal} (h : ∀ k, x k = y k) (w : (⟨2, ![K, N]⟩ : Shape).Idx → EReal) (q : Fin N) :
    rowDot x w q = rowDot y w q := by
  unfold rowDot
  exact Finset.sum_congr rfl fun k _ => by rw [h k]

end Cert.LibDotRows

end
-- ==== Proof.LibArgsort.lean ====
/-
  An argsort (a stable sort of keys carrying an iota) read as a permutation of positions, and the argsort of an
  argsort as that permutation's inverse.
-/
import Idealize.ShloMosaic.Lib.SortFacts

namespace Idealize.ShloMosaic.ArgsortLib

open Idealize.ShloMosaic

/-- The position whose key a stable sort by signed "less than" on the keys (ties by position) puts at place `k`. -/
def pos {n : Nat} (keys : (⟨1, ![n]⟩ : Shape).Idx → BitVec 32) : Fin n → Fin n :=
  sortedFrom (fun k k' => IntOp.cmpi .slt (keys (Shape.Idx.ofFin k)) (keys (Shape.Idx.ofFin k')) == 1#1)

/-- The argsort as a table of 32-bit words: place `j` holds the source position. -/
def argsort {n : Nat} (keys : (⟨1, ![n]⟩ : Shape).Idx → BitVec 32) : (⟨1, ![n]⟩ : Shape).Idx → BitVec 32 :=
  fun j => BitVec.ofNat 32 (pos keys (j 0)).val

theorem pos_bijective {n : Nat} (keys : (⟨1, ![n]⟩ : Shape).Idx → BitVec 32) : Function.Bijective (pos keys) :=
  ⟨sortedFrom_injective _, sortedFrom_surjective _⟩

/-- A sort of (keys, iota) by a comparator that compares the keys by signed "less than" returns, as its second
    table, the argsort. -/
theorem sort2_snd_iota {n : Nat} (cmp : BitVec 32 × BitVec 32 → BitVec 32 × BitVec 32 → BitVec 1)
    (hcmp : ∀ l r, cmp l r = IntOp.cmpi .slt l.1 r.1) (keys : (⟨1, ![n]⟩ : Shape).Idx → BitVec 32) :
    (Host.sort2 ⟨1, ![n]⟩ 0 cmp keys (iotaInDim ⟨1, ![n]⟩ 32 0)).2 = argsort keys := by
  funext j
  unfold Host.sort2
  simp [hcmp, iotaInDim, argsort, pos]

/-- A natural number below 2^31, as a 32-bit word read signed, is itself. -/
theorem toInt_ofNat_small {v : Nat} (hv : v < 2 ^ 31) : (BitVec.ofNat 32 v).toInt = (v : Int) := by
  rw [BitVec.toInt_eq_toNat_cond, BitVec.toNat_ofNat, Nat.mod_eq_of_lt (by omega)]
  split
  · rfl
  · omega

/-- The words of an argsort of at most 2^31 places are the positions, read signed. -/
theorem argsort_toInt {n : Nat} (hn : n ≤ 2 ^ 31) (keys : (⟨1, ![n]⟩ : Shape).Idx → BitVec 32) (j : (⟨1, ![n]⟩ : Shape).Idx) :
    (argsort keys j).toInt = ((pos keys (j 0)).val : Int) := by
  unfold argsort
  exact toInt_ofNat_small (lt_of_lt_of_le (pos keys (j 0)).isLt hn)

/-- Signed "less than" on the words of two naturals below 2^31 is "less than" on the naturals. -/
theorem slt_ofNat_small {a b : Nat} (ha : a < 2 ^ 31) (hb : b < 2 ^ 31) :
    (IntOp.cmpi .slt (BitVec.ofNat 32 a) (BitVec.ofNat 32 b) == 1#1) = decide (a < b) := by
  unfold IntOp.cmpi
  simp only [BitVec.slt_eq_decide, toInt_ofNat_small ha, toInt_ofNat_small hb]
  by_cases h : a < b
  · simp [h]
  · simp [h]

/-- A strictly monotone self-map of `Fin n` is the identity. -/
theorem strictMono_fin_eq_id {n : Nat} (f : Fin n → Fin n) (hf : StrictMono f) (j : Fin n) : f j = j :=
  le_antisymm hf.apply_le hf.le_apply

/-- The argsort of an argsort is the inverse permutation: the place that holds position `j`. -/
theorem pos_pos_argsort {n : Nat} (hn : n ≤ 2 ^ 31) (keys : (⟨1, ![n]⟩ : Shape).Idx → BitVec 32) (j : Fin n) :
    pos keys (pos (argsort keys) j) = j := by
  -- the relation that sorts the argsort table is "the key's place is smaller"
  have hB : (fun k k' : Fin n => IntOp.cmpi .slt (argsort keys (Shape.Idx.ofFin k)) (argsort keys (Shape.Idx.ofFin k')) == 1#1)
      = fun k k' => decide (pos keys k < pos keys k') := by
    funext k k'
    unfold argsort
    simp only [Shape.Idx.ofFin_zero]
    rw [slt_ofNat_small (lt_of_lt_of_le (pos keys k).isLt hn) (lt_of_lt_of_le (pos keys k').isLt hn)]
    exact decide_eq_decide.mpr Fin.lt_def.symm
  have hpos : pos (argsort keys) = sortedFrom fun k k' => decide (pos keys k < pos keys k') :=
    congrArg sortedFrom hB
  -- the sorted places hold no inversion: the composite is monotone
  have hmono : ∀ i i' : Fin n, i < i' → ¬ pos keys (pos (argsort keys) i') < pos keys (pos (argsort keys) i) := by
    intro i i' hii
    have h := sortedFrom_noInversion (fun k k' => decide (pos keys k < pos keys k')) (fun k k' => decide (pos keys k < pos keys k'))
      (fun a b h => by simp only [decide_eq_true_eq, decide_eq_false_iff_not] at h ⊢; exact not_lt_of_gt h)
      (fun _ _ h => h)
      (fun a b c h₁ h₂ => by
        simp only [decide_eq_false_iff_not, not_lt] at h₁ h₂ ⊢; exact le_trans h₂ h₁) i i' hii
    rw [hpos]
    exact of_decide_eq_false h
  -- an injective monotone map is strictly monotone, and a strictly monotone self-map of `Fin n` is the identity
  have hinj : Function.Injective fun i => pos keys (pos (argsort keys) i) :=
    (pos_bijective keys).1.comp (pos_bijective (argsort keys)).1
  have hstrict : StrictMono fun i => pos keys (pos (argsort keys) i) := by
    intro i i' hii
    rcases lt_trichotomy (pos keys (pos (argsort keys) i)) (pos keys (pos (argsort keys) i')) with h | h | h
    · exact h
    · exact absurd (hinj h) (ne_of_lt hii)
    · exact absurd h (hmono i i' hii)
  exact strictMono_fin_eq_id _ hstrict j

-- The sorting permutation is known through the theorems above (a bijection; the argsort's words; its inverse), never
-- through the insertion sort that defines it.
attribute [irreducible] pos

end Idealize.ShloMosaic.ArgsortLib
-- ==== Proof.MoeSpec.lean ====
/-
  The mixture-of-experts layer as ONE function of its argument arrays, index by index, on the extended reals.

  Tokens `x : [4096, 1024]`; each token has two routing slots with weights `w : [4096, 2]` and expert ids
  `ids : [4096, 2]`. The 8192 slots, flattened (slot `2 t + k`), are sorted by expert id: `ord r` is the slot at sorted
  place `r`, and `inv s` the sorted place of slot `s`. Place `r = 1024 e + c` belongs to expert `e`; its row is the
  token `ord r / 2`. Expert `e` maps a row through a gated two-layer map: `((g · σ g) · u) wd`, with `g = row · wg e`,
  `u = row · wu e`. The token's output adds its two slots' expert rows, each scaled by the slot's weight, and a shared
  gated map of the token scaled by a sigmoid of a linear score.
-/
import Idealize.ShloMosaic.PureOps.Ideal
import Idealize.ShloMosaic.Lib.ValueIdx
import proofs.«157043_j62388694942421_2_alg».proof.Proof.LibArgsort

noncomputable section

open scoped BigOperators

namespace Cert.MoeSpec

open Idealize.ShloMosaic Idealize.ShloMosaic.ValueIdx Idealize.ShloMosaic.ArgsortLib

abbrev Tok : Shape := ⟨2, ![4096, 1024]⟩
abbrev Slots : Shape := ⟨2, ![4096, 2]⟩
abbrev ExpW : Shape := ⟨3, ![8, 1024, 1024]⟩
abbrev Mat : Shape := ⟨2, ![1024, 1024]⟩
abbrev Col : Shape := ⟨2, ![1024, 1]⟩
abbrev Flat : Shape := ⟨1, ![8192]⟩

/-- The gated product `(g · σ g) · u`. -/
def gated (g u : EReal) : EReal := (g * Ideal.logistic g) * u

/-- The flattened slot `2 t + k`. -/
def slot (t : Fin 4096) (k : Fin 2) : Fin 8192 := ⟨t.val * 2 + k.val, by have := t.isLt; have := k.isLt; omega⟩
/-- The sorted place `1024 e + c`. -/
def place (e : Fin 8) (c : Fin 1024) : Fin 8192 := ⟨e.val * 1024 + c.val, by have := e.isLt; have := c.isLt; omega⟩
/-- The token of a slot. -/
def tokOf (s : Fin 8192) : Fin 4096 := ⟨s.val / 2, by have := s.isLt; omega⟩
/-- The routing index of a slot. -/
def kOf (s : Fin 8192) : Fin 2 := ⟨s.val % 2, by omega⟩
/-- The expert of a sorted place. -/
def expOf (r : Fin 8192) : Fin 8 := ⟨r.val / 1024, by have := r.isLt; omega⟩
/-- The row of a sorted place within its expert. -/
def rowOf (r : Fin 8192) : Fin 1024 := ⟨r.val % 1024, by omega⟩

/-- The flattened expert ids: slot `s` reads `ids[s / 2, s % 2]`. -/
def keysOf (ids : Slots.Idx → BitVec 32) : Flat.Idx → BitVec 32 := fun i => ids (ix2 (tokOf (i 0)) (kOf (i 0)))
/-- The flattened routing weights. -/
def flatW (w : Slots.Idx → EReal) : Flat.Idx → EReal := fun i => w (ix2 (tokOf (i 0)) (kOf (i 0)))

/-- The slot at each sorted place. -/
def ordOf (ids : Slots.Idx → BitVec 32) : Fin 8192 → Fin 8192 := pos (keysOf ids)
/-- The sorted place of each slot. -/
def invOf (ids : Slots.Idx → BitVec 32) : Fin 8192 → Fin 8192 := pos (argsort (keysOf ids))

theorem ord_inv (ids : Slots.Idx → BitVec 32) (s : Fin 8192) : ordOf ids (invOf ids s) = s :=
  pos_pos_argsort (by norm_num) (keysOf ids) s

/-- Expert `e`'s output for the row at place `1024 e + c`, column `d`. -/
def expertOut (x : Tok.Idx → EReal) (wg wu wd : ExpW.Idx → EReal) (ord : Fin 8192 → Fin 8192) (e : Fin 8) (c : Fin 1024)
    (d : Fin 1024) : EReal :=
  ∑ f : Fin 1024, gated (∑ k : Fin 1024, x (ix2 (tokOf (ord (place e c))) k) * wg (ix3 e k f))
      (∑ k : Fin 1024, x (ix2 (tokOf (ord (place e c))) k) * wu (ix3 e k f)) * wd (ix3 e f d)

/-- The routed part of token `t`'s output: its two slots' expert rows, weighted. -/
def routed (x : Tok.Idx → EReal) (w : Slots.Idx → EReal) (wg wu wd : ExpW.Idx → EReal) (ord inv : Fin 8192 → Fin 8192)
    (t : Fin 4096) (d : Fin 1024) : EReal :=
  ∑ k : Fin 2, expertOut x wg wu wd ord (expOf (inv (slot t k))) (rowOf (inv (slot t k))) d * w (ix2 t k)

/-- The shared part: a gated map of the token, scaled by the sigmoid of a linear score. -/
def sharedOut (x : Tok.Idx → EReal) (swg swu swd : Mat.Idx → EReal) (sgw : Col.Idx → EReal) (t : Fin 4096) (d : Fin 1024) : EReal :=
  Ideal.logistic (∑ k : Fin 1024, x (ix2 t k) * sgw (ix2 k (0 : Fin 1))) *
    ∑ f : Fin 1024, gated (∑ k : Fin 1024, x (ix2 t k) * swg (ix2 k f)) (∑ k : Fin 1024, x (ix2 t k) * swu (ix2 k f)) * swd (ix2 f d)

/-- The layer's output. -/
def out (x : Tok.Idx → EReal) (w : Slots.Idx → EReal) (wg wu wd : ExpW.Idx → EReal) (swg swu swd : Mat.Idx → EReal)
    (sgw : Col.Idx → EReal) (ids : Slots.Idx → BitVec 32) : Tok.Idx → EReal := fun i =>
  routed x w wg wu wd (ordOf ids) (invOf ids) (i 0) (i 1) + sharedOut x swg swu swd sgw (i 0) (i 1)

end Cert.MoeSpec

end
-- ==== Proof.KShared.lean ====
/-
  The shared expert's body, read at an entry of its output block.

  One block is 512 tokens. For token row p and column q the body leaves
    moe (p, q) + σ (∑ₖ h (p, k) · sgw (k, 0)) · ∑_f ((g_f · σ g_f) · u_f) · swd (f, q),
  with g_f = ∑ₖ h (p, k) · swg (k, f) and u_f = ∑ₖ h (p, k) · swu (k, f): three matrix products into a zero
  accumulator, each a row of h against a column of the weights, and a sigmoid gate that is one number per row.
-/
import proofs.«157043_j62388694942421_2_alg».proof.Proof.Gen.KernelIdeal.Skeleton
import proofs.«157043_j62388694942421_2_alg».proof.Proof.LibDotRows
import proofs.«157043_j62388694942421_2_alg».proof.Proof.MoeSpec
import Idealize.ShloMosaic.Lib.Pipeline.Value
import Idealize.ShloMosaic.Lib.ValueLayout
import Idealize.ShloMosaic.PureOps.Ideal.Laws

noncomputable section

open scoped BigOperators

namespace Cert.KernelValue

open Idealize.ShloMosaic Idealize.ShloMosaic.ValueIdx Cert.KernelIdeal Cert.KernelIdeal.Gen Cert.LibDotRows Cert.MoeSpec

/-- The sigmoid of a vector, at an index, is the sigmoid of the entry. -/
theorem logistic_apply {s : Shape} {φ : FTy} (a : FVec Ideal s φ) (i : s.Idx) : logistic a i = Ideal.logistic (a i) := rfl

/-- A [512, 1024] block times a [1024, 1024] matrix into zero, at (p, q): row p against column q. -/
theorem mm512_apply (l : FVec Ideal S512x1024 .f32) (r : FVec Ideal S1024x1024 .f32) (p : Fin 512) (q : Fin 1024) :
    matmul dot_S512x1024_S1024x1024_S512x1024_1_0_0_1_n_n none l r (constant S512x1024 .f32 0x00000000#32) (ix2 p q)
      = ∑ k : Fin 1024, l (ix2 p k) * r (ix2 k q) := by
  simp only [matmul]
  refine (Ideal.matmul_constant_zero_apply _ _ _ _ _).trans ?_
  refine (sum_contr_eq_rowDot dot_S512x1024_S1024x1024_S512x1024_1_0_0_1_n_n rfl rfl ?_ ?_ ?_ ?_ l r (ix2 p q)).trans rfl
  · intro i c
    unfold DotDims.lhsIdx
    rw [dif_neg (show ¬(0 : Fin S512x1024.rank) ∈ dot_S512x1024_S1024x1024_S512x1024_1_0_0_1_n_n.lhsBatch by decide),
      dif_pos (show (0 : Fin S512x1024.rank) ∈ dot_S512x1024_S1024x1024_S512x1024_1_0_0_1_n_n.lhsNonContracting by decide)]
    rfl
  · intro i c
    exact dot_S512x1024_S1024x1024_S512x1024_1_0_0_1_n_n.lhsIdx_val_of_single rfl i c
  · intro i c
    exact dot_S512x1024_S1024x1024_S512x1024_1_0_0_1_n_n.rhsIdx_val_of_single rfl i c
  · intro i c
    unfold DotDims.rhsIdx
    rw [dif_neg (show ¬(1 : Fin S1024x1024.rank) ∈ dot_S512x1024_S1024x1024_S512x1024_1_0_0_1_n_n.rhsBatch by decide),
      dif_pos (show (1 : Fin S1024x1024.rank) ∈ dot_S512x1024_S1024x1024_S512x1024_1_0_0_1_n_n.rhsNonContracting by decide)]
    rfl

/-- A [512, 1024] block times a [1024, 1] column into zero, at (p, 0): row p against the column. -/
theorem mm512c_apply (l : FVec Ideal S512x1024 .f32) (r : FVec Ideal S1024x1 .f32) (p : Fin 512) (q : Fin 1) :
    matmul dot_S512x1024_S1024x1_S512x1_1_0_0_1_n_n none l r (constant S512x1 .f32 0x00000000#32) (ix2 p q)
      = ∑ k : Fin 1024, l (ix2 p k) * r (ix2 k q) := by
  simp only [matmul]
  refine (Ideal.matmul_constant_zero_apply _ _ _ _ _).trans ?_
  refine (sum_contr_eq_rowDot dot_S512x1024_S1024x1_S512x1_1_0_0_1_n_n rfl rfl ?_ ?_ ?_ ?_ l r (ix2 p q)).trans rfl
  · intro i c
    unfold DotDims.lhsIdx
    rw [dif_neg (show ¬(0 : Fin S512x1024.rank) ∈ dot_S512x1024_S1024x1_S512x1_1_0_0_1_n_n.lhsBatch by decide),
      dif_pos (show (0 : Fin S512x1024.rank) ∈ dot_S512x1024_S1024x1_S512x1_1_0_0_1_n_n.lhsNonContracting by decide)]
    rfl
  · intro i c
    exact dot_S512x1024_S1024x1_S512x1_1_0_0_1_n_n.lhsIdx_val_of_single rfl i c
  · intro i c
    exact dot_S512x1024_S1024x1_S512x1_1_0_0_1_n_n.rhsIdx_val_of_single rfl i c
  · intro i c
    unfold DotDims.rhsIdx
    rw [dif_neg (show ¬(1 : Fin S1024x1.rank) ∈ dot_S512x1024_S1024x1_S512x1_1_0_0_1_n_n.rhsBatch by decide),
      dif_pos (show (1 : Fin S1024x1.rank) ∈ dot_S512x1024_S1024x1_S512x1_1_0_0_1_n_n.rhsNonContracting by decide)]
    rfl

/-- The shared body's stored value at (p, q). -/
theorem shared_pay_apply (v0 : Vec Ideal S512x1024 .bf16) (v3 : Vec Ideal S512x1024 .f32) (v5 v6 v7 : Vec Ideal S1024x1024 .f32)
    (v8 : Vec Ideal S1024x1 .f32) (p : Fin 512) (q : Fin 1024) :
    k1_pay1 v0 v3 v5 v6 v7 v8 (ix2 p q)
      = v3 (ix2 p q) + Ideal.logistic (∑ k : Fin 1024, v0 (ix2 p k) * v8 (ix2 k (0 : Fin 1))) *
          ∑ f : Fin 1024, gated (∑ k : Fin 1024, v0 (ix2 p k) * v5 (ix2 k f)) (∑ k : Fin 1024, v0 (ix2 p k) * v6 (ix2 k f)) * v7 (ix2 f q) := by
  unfold k1_pay1
  simp only [shapeCast_self]
  rw [addf_apply, mulf_apply, mm512_apply, broadcastTo_apply _ broadcasts_S512x1_S512x1024 (ix2 p q) (ix2 p (0 : Fin 1))
    (by intro a; match a with | ⟨0, _⟩ => rfl | ⟨1, _⟩ => rfl), logistic_apply, mm512c_apply]
  refine congrArg (v3 (ix2 p q) + ·) (congrArg₂ (· * ·) rfl (Finset.sum_congr rfl fun f _ => ?_))
  rw [mulf_apply, mulf_apply, logistic_apply, mm512_apply, mm512_apply]
  rfl

end Cert.KernelValue

end
-- ==== Proof.KExpert.lean ====
/-
  The expert body, read at an entry of its output block.

  One block is 256 rows of one expert. For row p and column q the body leaves
    (∑_f ((g_f · σ g_f) · u_f) · wd (f, q)) · wp (p, 0),
  with g_f = ∑ₖ x (p, k) · wg (k, f) and u_f = ∑ₖ x (p, k) · wu (k, f): three matrix products into a zero
  accumulator, each a row of x against a column of the weights, then a scaling of row p by one number. The blocks
  carry a leading axis of extent one, dropped before the products and restored after them; the narrowing and the
  widening of the element type are the identity on the extended reals.
-/
import proofs.«157043_j62388694942421_2_alg».proof.Proof.Gen.KernelIdeal.Skeleton
import proofs.«157043_j62388694942421_2_alg».proof.Proof.LibDotRows
import proofs.«157043_j62388694942421_2_alg».proof.Proof.MoeSpec
import proofs.«157043_j62388694942421_2_alg».proof.Proof.KShared
import Idealize.ShloMosaic.Lib.Pipeline.Value
import Idealize.ShloMosaic.Lib.ValueLayout
import Idealize.ShloMosaic.PureOps.Ideal.Laws

noncomputable section

open scoped BigOperators

namespace Cert.KernelValue

open Idealize.ShloMosaic Idealize.ShloMosaic.ValueIdx Cert.KernelIdeal Cert.KernelIdeal.Gen Cert.LibDotRows Cert.MoeSpec

/-- A [256, 1024] block times a [1024, 1024] matrix into zero, at (p, q): row p against column q. -/
theorem mm256_apply (l : FVec Ideal S256x1024 .f32) (r : FVec Ideal S1024x1024 .f32) (p : Fin 256) (q : Fin 1024) :
    matmul dot_S256x1024_S1024x1024_S256x1024_1_0_0_1_n_n none l r (constant S256x1024 .f32 0x00000000#32) (ix2 p q)
      = ∑ k : Fin 1024, l (ix2 p k) * r (ix2 k q) := by
  simp only [matmul]
  refine (Ideal.matmul_constant_zero_apply _ _ _ _ _).trans ?_
  refine (sum_contr_eq_rowDot dot_S256x1024_S1024x1024_S256x1024_1_0_0_1_n_n rfl rfl ?_ ?_ ?_ ?_ l r (ix2 p q)).trans rfl
  · intro i c
    unfold DotDims.lhsIdx
    rw [dif_neg (show ¬(0 : Fin S256x1024.rank) ∈ dot_S256x1024_S1024x1024_S256x1024_1_0_0_1_n_n.lhsBatch by decide),
      dif_pos (show (0 : Fin S256x1024.rank) ∈ dot_S256x1024_S1024x1024_S256x1024_1_0_0_1_n_n.lhsNonContracting by decide)]
    rfl
  · intro i c
    exact dot_S256x1024_S1024x1024_S256x1024_1_0_0_1_n_n.lhsIdx_val_of_single rfl i c
  · intro i c
    exact dot_S256x1024_S1024x1024_S256x1024_1_0_0_1_n_n.rhsIdx_val_of_single rfl i c
  · intro i c
    unfold DotDims.rhsIdx
    rw [dif_neg (show ¬(1 : Fin S1024x1024.rank) ∈ dot_S256x1024_S1024x1024_S256x1024_1_0_0_1_n_n.rhsBatch by decide),
      dif_pos (show (1 : Fin S1024x1024.rank) ∈ dot_S256x1024_S1024x1024_S256x1024_1_0_0_1_n_n.rhsNonContracting by decide)]
    rfl

/-- The expert body's stored value at (0, p, q). -/
theorem expert_pay_apply (v0 : Vec Ideal S1x256x1024 .bf16) (v3 v5 v7 : Vec Ideal S1x1024x1024 .f32) (v15 : Vec Ideal S1x256x1 .f32)
    (p : Fin 256) (q : Fin 1024) :
    k0_pay1 v0 v3 v5 v7 v15 (ix3 (0 : Fin 1) p q)
      = (∑ f : Fin 1024, gated (∑ k : Fin 1024, v0 (ix3 (0 : Fin 1) p k) * v3 (ix3 (0 : Fin 1) k f))
          (∑ k : Fin 1024, v0 (ix3 (0 : Fin 1) p k) * v5 (ix3 (0 : Fin 1) k f)) * v7 (ix3 (0 : Fin 1) f q))
        * v15 (ix3 (0 : Fin 1) p (0 : Fin 1)) := by
  unfold k0_pay1
  rw [shapeCast_ab_1ab_apply, truncf_apply, mulf_apply, mm256_apply,
    broadcastTo_apply _ broadcasts_S256x1_S256x1024 (ix2 p q) (ix2 p (0 : Fin 1))
      (by intro a; match a with | ⟨0, _⟩ => rfl | ⟨1, _⟩ => rfl),
    shapeCast_1ab_ab_apply]
  refine congrArg₂ (· * ·) (Finset.sum_congr rfl fun f _ => ?_) rfl
  rw [mulf_apply, mulf_apply, logistic_apply, mm256_apply, mm256_apply, shapeCast_1ab_ab_apply]
  simp only [extf_apply, shapeCast_1ab_ab_apply]
  rfl

end Cert.KernelValue

end
-- ==== Proof.KRegion0.lean ====
/-
  The expert region as a whole-array function.

  The region walks 8 experts × 4 tiles of 256 rows: point t has expert t / 4 and tile t % 4. Block t of the rows, of
  the weight column and of the output is rows 256 (t % 4) … 256 (t % 4) + 255 of expert t / 4; block t of each of the
  three weight operands is expert t / 4's whole matrix. So what point t writes back is the restriction to block t of
  ONE function of the arrays the region finds, and the 32 blocks cover the output.
-/
import proofs.«157043_j62388694942421_2_alg».proof.Proof.Gen.KernelIdeal.Frame
import proofs.«157043_j62388694942421_2_alg».proof.Proof.KExpert
import Idealize.ShloMosaic.Lib.Pipeline.Value

set_option maxRecDepth 16384

noncomputable section

open scoped BigOperators

namespace Cert.KernelValue

open Idealize.ShloMosaic Idealize.ShloMosaic.ValueIdx Idealize.ShloMosaic.TcCoe Idealize.SL.Sem
open Cert.KernelIdeal Cert.KernelIdeal.Gen Cert.MoeSpec
open Idealize.ShloMosaic.Pipeline (Dat)

/-- Expert e's output for its row r, column d, scaled by the row's weight: one function of the arrays. -/
def expertEntry (xs wg wu wd : S8x1024x1024.Idx → EReal) (wp : S8x1024x1.Idx → EReal) (e : Fin 8) (r d : Fin 1024) : EReal :=
  (∑ f : Fin 1024, gated (∑ k : Fin 1024, xs (ix3 e r k) * wg (ix3 e k f)) (∑ k : Fin 1024, xs (ix3 e r k) * wu (ix3 e k f))
      * wd (ix3 e f d)) * wp (ix3 e r (0 : Fin 1))

/-- The expert region's output as one function of the arrays it reads. -/
def expertArr (xs wg wu wd : S8x1024x1024.Idx → EReal) (wp : S8x1024x1.Idx → EReal) : S8x1024x1024.Idx → EReal :=
  fun i => expertEntry xs wg wu wd wp (i 0) (i 1) (i 2)

theorem hz3 : (![0, 0, 0] : Fin 3 → Nat) = fun _ => 0 := funext fun a => by fin_cases a <;> rfl

/-- The printed index maps over the 32 points: the rows, the weight column and the output move with the expert and
    the tile; the weight matrices move with the expert alone. -/
theorem idx_facts0 : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0 :=
  (by decide +kernel : ∀ t : Fin grid0.N, _)

variable (V : (c : Dev nD) → (b : Ref sig .tc) → Buf (Elt Ideal) ((c : Thread nD τ).loc b))

/-- What point t writes back is block t of `expertArr` of the arrays as the region finds them. -/
theorem flushed0_eq (c : Dev nD) (t : Fin cfg0.N) :
    (dat0 V c).flushed 5 t = ((cfg0.win 5).blk t).view.read (Elt Ideal)
      (expertArr (V c main_v11) (V c main_arg2) (V c main_arg3) (V c main_arg4) (V c main_v20)) := by
  show (cfg0.win 5).cut (grid0.coords t) ((dat0 V c).after 5 t) = _
  rw [after0_5]
  unfold out0_5
  rw [View.canon_unit_zero hz3]
  simp only [View.ld_unit_zero (S := S1x256x1024) hz3, View.ld_unit_zero (S := S1x1024x1024) hz3, View.ld_unit_zero (S := S1x256x1) hz3]
  obtain ⟨a00, a01, a02, a10, a11, a12, a20, a21, a22, a30, a31, a32, a40, a41, a42, a50, a51, a52⟩ := idx_facts0 t
  funext j
  obtain ⟨z, p, q, rfl⟩ : ∃ (z : Fin 1) (p : Fin 256) (q : Fin 1024), j = ix3 z p q := ⟨j 0, j 1, j 2, eq_ix3 j⟩
  obtain rfl : z = 0 := Subsingleton.elim _ _
  refine (expert_pay_apply _ _ _ _ _ p q).trans ?_
  have ht : t.val < 32 := t.isLt
  have hE : t.val / 4 < 8 := by omega
  have hR : t.val % 4 * 256 + p.val < 1024 := by have := p.isLt; omega
  have r0 : ∀ k : Fin 1024, iblk0 V c 0 t (ix3 (0 : Fin 1) p k)
      = V c main_v11 (ix3 (⟨t.val / 4, hE⟩ : Fin 8) (⟨t.val % 4 * 256 + p.val, hR⟩ : Fin 1024) k) := fun k => by
    show V c main_v11 (((cfg0.win 0).blk t).view.emb (ix3 (0 : Fin 1) p k)) = _
    refine congrArg (V c main_v11) (funext fun a => Fin.ext ?_)
    match a with
    | ⟨0, _⟩ => show win0_0.index t (0 : Fin 3) * 1 + 1 * 0 = t.val / 4; omega
    | ⟨1, _⟩ => show win0_0.index t (1 : Fin 3) * 256 + 1 * p.val = t.val % 4 * 256 + p.val; omega
    | ⟨2, _⟩ => show win0_0.index t (2 : Fin 3) * 1024 + 1 * k.val = k.val; omega
  have r1 : ∀ (k f : Fin 1024), iblk0 V c 1 t (ix3 (0 : Fin 1) k f) = V c main_arg2 (ix3 (⟨t.val / 4, hE⟩ : Fin 8) k f) := fun k f => by
    show V c main_arg2 (((cfg0.win 1).blk t).view.emb (ix3 (0 : Fin 1) k f)) = _
    refine congrArg (V c main_arg2) (funext fun a => Fin.ext ?_)
    match a with
    | ⟨0, _⟩ => show win0_1.index t (0 : Fin 3) * 1 + 1 * 0 = t.val / 4; omega
    | ⟨1, _⟩ => show win0_1.index t (1 : Fin 3) * 1024 + 1 * k.val = k.val; omega
    | ⟨2, _⟩ => show win0_1.index t (2 : Fin 3) * 1024 + 1 * f.val = f.val; omega
  have r2 : ∀ (k f : Fin 1024), iblk0 V c 2 t (ix3 (0 : Fin 1) k f) = V c main_arg3 (ix3 (⟨t.val / 4, hE⟩ : Fin 8) k f) := fun k f => by
    show V c main_arg3 (((cfg0.win 2).blk t).view.emb (ix3 (0 : Fin 1) k f)) = _
    refine congrArg (V c main_arg3) (funext fun a => Fin.ext ?_)
    match a with
    | ⟨0, _⟩ => show win0_2.index t (0 : Fin 3) * 1 + 1 * 0 = t.val / 4; omega
    | ⟨1, _⟩ => show win0_2.index t (1 : Fin 3) * 1024 + 1 * k.val = k.val; omega
    | ⟨2, _⟩ => show win0_2.index t (2 : Fin 3) * 1024 + 1 * f.val = f.val; omega
  have r3 : ∀ (k f : Fin 1024), iblk0 V c 3 t (ix3 (0 : Fin 1) k f) = V c main_arg4 (ix3 (⟨t.val / 4, hE⟩ : Fin 8) k f) := fun k f => by
    show V c main_arg4 (((cfg0.win 3).blk t).view.emb (ix3 (0 : Fin 1) k f)) = _
    refine congrArg (V c main_arg4) (funext fun a => Fin.ext ?_)
    match a with
    | ⟨0, _⟩ => show win0_3.index t (0 : Fin 3) * 1 + 1 * 0 = t.val / 4; omega
    | ⟨1, _⟩ => show win0_3.index t (1 : Fin 3) * 1024 + 1 * k.val = k.val; omega
    | ⟨2, _⟩ => show win0_3.index t (2 : Fin 3) * 1024 + 1 * f.val = f.val; omega
  have r4 : iblk0 V c 4 t (ix3 (0 : Fin 1) p (0 : Fin 1))
      = V c main_v20 (ix3 (⟨t.val / 4, hE⟩ : Fin 8) (⟨t.val % 4 * 256 + p.val, hR⟩ : Fin 1024) (0 : Fin 1)) := by
    show V c main_v20 (((cfg0.win 4).blk t).view.emb (ix3 (0 : Fin 1) p (0 : Fin 1))) = _
    refine congrArg (V c main_v20) (funext fun a => Fin.ext ?_)
    match a with
    | ⟨0, _⟩ => show win0_4.index t (0 : Fin 3) * 1 + 1 * 0 = t.val / 4; omega
    | ⟨1, _⟩ => show win0_4.index t (1 : Fin 3) * 256 + 1 * p.val = t.val % 4 * 256 + p.val; omega
    | ⟨2, _⟩ => show win0_4.index t (2 : Fin 3) * 1 + 1 * 0 = 0; omega
  have rout : ((cfg0.win 5).blk t).view.emb (ix3 (0 : Fin 1) p q)
      = ix3 (⟨t.val / 4, hE⟩ : Fin 8) (⟨t.val % 4 * 256 + p.val, hR⟩ : Fin 1024) q := by
    refine funext fun a => Fin.ext ?_
    match a with
    | ⟨0, _⟩ => show win0_5.index t (0 : Fin 3) * 1 + 1 * 0 = t.val / 4; omega
    | ⟨1, _⟩ => show win0_5.index t (1 : Fin 3) * 256 + 1 * p.val = t.val % 4 * 256 + p.val; omega
    | ⟨2, _⟩ => show win0_5.index t (2 : Fin 3) * 1024 + 1 * q.val = q.val; omega
  rw [r4]
  simp only [r0, r1, r2, r3]
  show _ = expertArr (V c main_v11) (V c main_arg2) (V c main_arg3) (V c main_arg4) (V c main_v20)
    (((cfg0.win 5).blk t).view.emb (ix3 (0 : Fin 1) p q))
  rw [rout]
  rfl

/-- An index of the output is in point t's block iff each coordinate is in the block's range on its axis. -/
theorem mem_blk0 (t : Fin cfg0.N) (i : S8x1024x1024.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v21).slice (win0_5.rect t)).set ↔ _
  rw [View.set_slice_whole, Rect.mem_set_unit]
  exact Iff.rfl

/-- Every index of the output is in some point's block: expert i₀, tile i₁ / 256. -/
theorem cover0 (i : S8x1024x1024.Idx) :
    ∃ t : Fin cfg0.N, (cfg0.win 5).flush t = true ∧ i ∈ ((cfg0.win 5).blk t).view.set := by
  have h0 : (i 0).val < 8 := (i 0).isLt
  have h1 : (i 1).val < 1024 := (i 1).isLt
  have h2 : (i 2).val < 1024 := (i 2).isLt
  have hN : (i 0).val * 4 + (i 1).val / 256 < 32 := by omega
  obtain ⟨a00, a01, a02, a10, a11, a12, a20, a21, a22, a30, a31, a32, a40, a41, a42, a50, a51, a52⟩ :=
    idx_facts0 (⟨(i 0).val * 4 + (i 1).val / 256, hN⟩ : Fin cfg0.N)
  simp only at a50 a51 a52
  refine ⟨⟨(i 0).val * 4 + (i 1).val / 256, hN⟩, flush0_5 _, ?_⟩
  rw [mem_blk0]
  intro a
  match a with
  | ⟨0, _⟩ =>
    show win0_5.index ⟨(i 0).val * 4 + (i 1).val / 256, hN⟩ (0 : Fin 3) * 1 ≤ (i 0).val
      ∧ (i 0).val < win0_5.index ⟨(i 0).val * 4 + (i 1).val / 256, hN⟩ (0 : Fin 3) * 1 + 1
    omega
  | ⟨1, _⟩ =>
    show win0_5.index ⟨(i 0).val * 4 + (i 1).val / 256, hN⟩ (1 : Fin 3) * 256 ≤ (i 1).val
      ∧ (i 1).val < win0_5.index ⟨(i 0).val * 4 + (i 1).val / 256, hN⟩ (1 : Fin 3) * 256 + 256
    omega
  | ⟨2, _⟩ =>
    show win0_5.index ⟨(i 0).val * 4 + (i 1).val / 256, hN⟩ (2 : Fin 3) * 1024 ≤ (i 2).val
      ∧ (i 2).val < win0_5.index ⟨(i 0).val * 4 + (i 1).val / 256, hN⟩ (2 : Fin 3) * 1024 + 1024
    omega

/-- The output array after the region: `expertArr` of the arrays as the region finds them. -/
theorem final0 (c : Dev nD) :
    (dat0 V c).arrAt 5 cfg0.N = expertArr (V c main_v11) (V c main_arg2) (V c main_arg3) (V c main_arg4) (V c main_v20) :=
  (dat0 V c).arrAt_eq_of_cover 5 _ (fun t _ => flushed0_eq V c t) cover0

end Cert.KernelValue

end
-- ==== Proof.KRegion1.lean ====
/-
  The shared region as a whole-array function.

  The region walks 8 blocks of 512 token rows. Block t of every row-blocked operand (the tokens, the routed sums, the
  output) is rows 512 t … 512 t + 511; the four weight operands are whole at every point. So what point t writes
  back is the restriction to block t of ONE function of the arrays the region finds, and the blocks cover the output.
-/
import proofs.«157043_j62388694942421_2_alg».proof.Proof.Gen.KernelIdeal.Frame
import proofs.«157043_j62388694942421_2_alg».proof.Proof.KShared
import Idealize.ShloMosaic.Lib.Pipeline.Value

set_option maxRecDepth 16384

noncomputable section

open scoped BigOperators

namespace Cert.KernelValue

open Idealize.ShloMosaic Idealize.ShloMosaic.ValueIdx Idealize.ShloMosaic.TcCoe Idealize.SL.Sem
open Cert.KernelIdeal Cert.KernelIdeal.Gen Cert.MoeSpec
open Idealize.ShloMosaic.Pipeline (Dat)

/-- The shared region's output as one function of the arrays it reads. -/
def sharedArr (h moe : S4096x1024.Idx → EReal) (swg swu swd : S1024x1024.Idx → EReal) (sgw : S1024x1.Idx → EReal) :
    S4096x1024.Idx → EReal :=
  fun i => moe i + sharedOut h swg swu swd sgw (i 0) (i 1)

theorem hz2 : (![0, 0] : Fin 2 → Nat) = fun _ => 0 := funext fun a => by fin_cases a <;> rfl

/-- The printed index maps over the 8 points: row-blocked operands move with the point, weights stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- What point t writes back is block t of `sharedArr` of the arrays as the region finds them. -/
theorem flushed1_eq (c : Dev nD) (t : Fin cfg1.N) :
    (dat1 V c).flushed 6 t = ((cfg1.win 6).blk t).view.read (Elt Ideal)
      (sharedArr (V c main_v0) (V c main_v33) (V c main_arg5) (V c main_arg6) (V c main_arg7) (V c main_arg8)) := by
  show (cfg1.win 6).cut (grid1.coords t) ((dat1 V c).after 6 t) = _
  rw [after1_6]
  unfold out1_6
  rw [View.canon_unit_zero hz2]
  simp only [View.ld_unit_zero (S := S512x1024) hz2, View.ld_unit_zero (S := S1024x1024) hz2, View.ld_unit_zero (S := S1024x1) hz2]
  obtain ⟨a00, a01, a10, a11, a20, a21, a30, a31, a40, a41, a50, a51, a60, a61⟩ := idx_facts1 t
  funext j
  obtain ⟨p, q, rfl⟩ : ∃ (p : Fin 512) (q : Fin 1024), j = ix2 p q := ⟨j 0, j 1, eq_ix2 j⟩
  refine (shared_pay_apply _ _ _ _ _ _ p q).trans ?_
  have ht : t.val < 8 := t.isLt
  have hT : t.val * 512 + p.val < 4096 := by have := p.isLt; omega
  have r0 : ∀ k : Fin 1024, iblk1 V c 0 t (ix2 p k) = V c main_v0 (ix2 (⟨t.val * 512 + p.val, hT⟩ : Fin 4096) k) := fun k => by
    show V c main_v0 (((cfg1.win 0).blk t).view.emb (ix2 p k)) = _
    refine congrArg (V c main_v0) (funext fun a => Fin.ext ?_)
    match a with
    | ⟨0, _⟩ => show win1_0.index t (0 : Fin 2) * 512 + 1 * p.val = t.val * 512 + p.val; omega
    | ⟨1, _⟩ => show win1_0.index t (1 : Fin 2) * 1024 + 1 * k.val = k.val; omega
  have r1 : iblk1 V c 1 t (ix2 p q) = V c main_v33 (ix2 (⟨t.val * 512 + p.val, hT⟩ : Fin 4096) q) := by
    show V c main_v33 (((cfg1.win 1).blk t).view.emb (ix2 p q)) = _
    refine congrArg (V c main_v33) (funext fun a => Fin.ext ?_)
    match a with
    | ⟨0, _⟩ => show win1_1.index t (0 : Fin 2) * 512 + 1 * p.val = t.val * 512 + p.val; omega
    | ⟨1, _⟩ => show win1_1.index t (1 : Fin 2) * 1024 + 1 * q.val = q.val; omega
  have r2 : ∀ (k f : Fin 1024), iblk1 V c 2 t (ix2 k f) = V c main_arg5 (ix2 k f) := fun k f => by
    show V c main_arg5 (((cfg1.win 2).blk t).view.emb (ix2 k f)) = _
    refine congrArg (V c main_arg5) (funext fun a => Fin.ext ?_)
    match a with
    | ⟨0, _⟩ => show win1_2.index t (0 : Fin 2) * 1024 + 1 * k.val = k.val; omega
    | ⟨1, _⟩ => show win1_2.index t (1 : Fin 2) * 1024 + 1 * f.val = f.val; omega
  have r3 : ∀ (k f : Fin 1024), iblk1 V c 3 t (ix2 k f) = V c main_arg6 (ix2 k f) := fun k f => by
    show V c main_arg6 (((cfg1.win 3).blk t).view.emb (ix2 k f)) = _
    refine congrArg (V c main_arg6) (funext fun a => Fin.ext ?_)
    match a with
    | ⟨0, _⟩ => show win1_3.index t (0 : Fin 2) * 1024 + 1 * k.val = k.val; omega
    | ⟨1, _⟩ => show win1_3.index t (1 : Fin 2) * 1024 + 1 * f.val = f.val; omega
  have r4 : ∀ (k f : Fin 1024), iblk1 V c 4 t (ix2 k f) = V c main_arg7 (ix2 k f) := fun k f => by
    show V c main_arg7 (((cfg1.win 4).blk t).view.emb (ix2 k f)) = _
    refine congrArg (V c main_arg7) (funext fun a => Fin.ext ?_)
    match a with
    | ⟨0, _⟩ => show win1_4.index t (0 : Fin 2) * 1024 + 1 * k.val = k.val; omega
    | ⟨1, _⟩ => show win1_4.index t (1 : Fin 2) * 1024 + 1 * f.val = f.val; omega
  have r5 : ∀ (k : Fin 1024) (z : Fin 1), iblk1 V c 5 t (ix2 k z) = V c main_arg8 (ix2 k z) := fun k z => by
    show V c main_arg8 (((cfg1.win 5).blk t).view.emb (ix2 k z)) = _
    refine congrArg (V c main_arg8) (funext fun a => Fin.ext ?_)
    match a with
    | ⟨0, _⟩ => show win1_5.index t (0 : Fin 2) * 1024 + 1 * k.val = k.val; omega
    | ⟨1, _⟩ => show win1_5.index t (1 : Fin 2) * 1 + 1 * z.val = z.val; omega
  have rout : ((cfg1.win 6).blk t).view.emb (ix2 p q) = ix2 (⟨t.val * 512 + p.val, hT⟩ : Fin 4096) q := by
    refine funext fun a => Fin.ext ?_
    match a with
    | ⟨0, _⟩ => show win1_6.index t (0 : Fin 2) * 512 + 1 * p.val = t.val * 512 + p.val; omega
    | ⟨1, _⟩ => show win1_6.index t (1 : Fin 2) * 1024 + 1 * q.val = q.val; omega
  rw [r1]
  simp only [r0, r2, r3, r4, r5]
  show _ = sharedArr (V c main_v0) (V c main_v33) (V c main_arg5) (V c main_arg6) (V c main_arg7) (V c main_arg8)
    (((cfg1.win 6).blk t).view.emb (ix2 p q))
  rw [rout]
  rfl

end Cert.KernelValue

end
-- ==== Proof.KFinal1.lean ====
/-
  The shared region's output array after the region.

  The 8 blocks of 512 rows cover the 4096 rows: row i₀ is in block i₀ / 512. Every point writes its block back, and
  what it writes is the block of one function of the arrays the region finds, so the array ends holding that function.
-/
import proofs.«157043_j62388694942421_2_alg».proof.Proof.KRegion1

set_option maxRecDepth 16384

noncomputable section

open scoped BigOperators

namespace Cert.KernelValue

open Idealize.ShloMosaic Idealize.ShloMosaic.ValueIdx Idealize.ShloMosaic.TcCoe Idealize.SL.Sem
open Cert.KernelIdeal Cert.KernelIdeal.Gen Cert.MoeSpec
open Idealize.ShloMosaic.Pipeline (Dat)

/-- An index of the output is in point t's block iff each coordinate is in the block's range on its axis. -/
theorem mem_blk1 (t : Fin cfg1.N) (i : S4096x1024.Idx) :
    i ∈ ((cfg1.win 6).blk t).view.set ↔ ∀ a : Fin 2, win1_6.index t a * S512x1024.size a ≤ (i a).val
      ∧ (i a).val < win1_6.index t a * S512x1024.size a + S512x1024.size a := by
  show i ∈ ((View.whole main_v34).slice (win1_6.rect t)).set ↔ _
  rw [View.set_slice_whole, Rect.mem_set_unit]
  exact Iff.rfl

/-- Every index of the output is in some point's block: block i₀ / 512. -/
theorem cover1 (i : S4096x1024.Idx) :
    ∃ t : Fin cfg1.N, (cfg1.win 6).flush t = true ∧ i ∈ ((cfg1.win 6).blk t).view.set := by
  have h0 : (i 0).val < 4096 := (i 0).isLt
  have h1 : (i 1).val < 1024 := (i 1).isLt
  have hN : (i 0).val / 512 < 8 := by omega
  obtain ⟨a00, a01, a10, a11, a20, a21, a30, a31, a40, a41, a50, a51, a60, a61⟩ :=
    idx_facts1 (⟨(i 0).val / 512, hN⟩ : Fin cfg1.N)
  simp only at a60 a61
  refine ⟨⟨(i 0).val / 512, hN⟩, flush1_6 _, ?_⟩
  rw [mem_blk1]
  intro a
  match a with
  | ⟨0, _⟩ =>
    show win1_6.index ⟨(i 0).val / 512, hN⟩ (0 : Fin 2) * 512 ≤ (i 0).val
      ∧ (i 0).val < win1_6.index ⟨(i 0).val / 512, hN⟩ (0 : Fin 2) * 512 + 512
    omega
  | ⟨1, _⟩ =>
    show win1_6.index ⟨(i 0).val / 512, hN⟩ (1 : Fin 2) * 1024 ≤ (i 1).val
      ∧ (i 1).val < win1_6.index ⟨(i 0).val / 512, hN⟩ (1 : Fin 2) * 1024 + 1024
    omega

variable (V : (c : Dev nD) → (b : Ref sig .tc) → Buf (Elt Ideal) ((c : Thread nD τ).loc b))

/-- The output array after the region: `sharedArr` of the arrays as the region finds them. -/
theorem final1 (c : Dev nD) :
    (dat1 V c).arrAt 6 cfg1.N
      = sharedArr (V c main_v0) (V c main_v33) (V c main_arg5) (V c main_arg6) (V c main_arg7) (V c main_arg8) :=
  (dat1 V c).arrAt_eq_of_cover 6 _ (fun t _ => flushed1_eq V c t) cover1

end Cert.KernelValue

end
-- ==== Proof.LibGatherRows.lean ====
/-
  Row gathers read at an index: `x[idx]` of a matrix `x : [N, C]` (whole rows) and of a flat array `x : [N]`, at a
  column `idx : [R, 1]` of start indices. The result's row `r` is the operand's row at the start index `idx[r, 0]`, read
  signed and clamped into `[0, N − 1]`.
-/
import Idealize.ShloMosaic.Lib.ValueIdx

noncomputable section

namespace Idealize.ShloMosaic.GatherRows

open Idealize.ShloMosaic Idealize.ShloMosaic.ValueIdx

variable {α : Type}

/-- The dimension numbers of a gather of whole rows of `[N, C]` at `[R, 1]` start indices into `[R, C]`. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    -- the row axis: collapsed, named by the start index map
    show (rowsDims N C R wf).start (ix2 r c) idx 0 + (rowsDims N C R wf).batchCoord (ix2 r c) 0
      + (rowsDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r c) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- the column axis: the offset axis, not named by the start index map
    show (rowsDims N C R wf).start (ix2 r c) idx 1 + (rowsDims N C R wf).batchCoord (ix2 r c) 1
      + (rowsDims N C R wf).offCoord (ix2 r c) 1 = _
    have h10 : (1 : Fin 2) ≠ 0 := by decide
    have h1 : (1 : Fin 2) ∉ (rowsDims N C R wf).startIndexMap := fun h => h10 (List.mem_singleton.mp h)
    have h1k : (1 : Fin 2) ∈ (rowsDims N C R wf).sKept :=
      (GatherDims.mem_sKept _ _).mpr ⟨fun h => h10 (List.mem_singleton.mp h), List.not_mem_nil⟩
    rw [GatherDims.batchCoord_eq_zero _ _ _ List.not_mem_nil]
    unfold GatherDims.start GatherDims.offCoord
    rw [dif_neg h1, dif_pos h1k]
    simp only [Nat.add_zero, Nat.zero_add]
    rfl

/-- The dimension numbers of a gather of elements of `[N]` at `[R, 1]` start indices into `[R]`. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

theorem gather_flat_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (flatDims N R wf) x idx (ix1 r)
      = x (ix1 (⟨min (idx (ix2 r (0 : Fin 1))).toInt.toNat (N - 1), by omega⟩ : Fin N)) := by
  unfold Host.gather
  congr 1
  funext a
  obtain rfl : a = 0 := Subsingleton.elim _ _
  refine Fin.ext ?_
  show (flatDims N R wf).start (ix1 r) idx 0 + (flatDims N R wf).batchCoord (ix1 r) 0
    + (flatDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 r) ⟨List.idxOf (0 : Fin 1) (flatDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Idealize.ShloMosaic.GatherRows

end
-- ==== Proof.KHost0.lean ====
/-
  The host operations before the first region, read at an index.

  The tokens are rounded (the identity on extended reals); the ids are flattened to the 8192 keys; the keys are sorted
  stably carrying an iota, which gives the dispatch order `ord`; the order is floor-divided by two (for a word that is
  not negative the host's correction term vanishes and the quotient is `ord r / 2`, the token of the slot); the token
  rows are gathered at that table and grouped by expert, and the flattened weights are gathered at the order itself.
  Every index table here holds words that are not negative, so the normalisation `a < 0 ? a + N : a` is the identity
  and the gather's clamp does nothing.
-/
import proofs.«157043_j62388694942421_2_alg».proof.Proof.Gen.KernelIdeal.Frame
import proofs.«157043_j62388694942421_2_alg».proof.Proof.MoeSpec
import proofs.«157043_j62388694942421_2_alg».proof.Proof.LibGatherRows
import Idealize.ShloMosaic.Lib.Pipeline.Value
import Idealize.ShloMosaic.Lib.ValueLayout
import Idealize.ShloMosaic.PureOps.Ideal.Laws

set_option maxRecDepth 16384

noncomputable section

open scoped BigOperators

namespace Cert.KernelValue

open Idealize.ShloMosaic Idealize.ShloMosaic.ValueIdx Idealize.ShloMosaic.TcCoe Idealize.SL.Sem
open Cert.KernelIdeal Cert.KernelIdeal.Gen Cert.MoeSpec

variable (m : (ℓ : Loc nD τ sig) → Buf (Elt Ideal) ℓ) (ρ : Dev nD → PrngReg)

/-! ## Index words -/

/-- A word that is not negative is its own normalised index: `a < 0 ? a + N : a` is `a`. -/
theorem normalize_nonneg (a N : BitVec 32) (h : 0 ≤ a.toInt) :
    Scalar.select (IntOp.cmpi .slt a 0#32) (IntOp.addi a N) a = a := by
  have hc : IntOp.cmpi .slt a 0#32 = 0#1 := by
    show BitVec.ofBool (a.slt 0#32) = 0#1
    have : a.slt 0#32 = false := by
      rw [BitVec.slt, BitVec.toInt_zero]
      exact decide_eq_false (by omega)
    rw [this]; rfl
  rw [hc, select_zero]

/-- A start index whose word reads `v` below the extent is clamped to itself. -/
theorem clamp_eq {N : Nat} (w : BitVec 32) (v : Fin N) (hw : w.toInt = (v.val : Int)) (h : min w.toInt.toNat (N - 1) < N) :
    (⟨min w.toInt.toNat (N - 1), h⟩ : Fin N) = v := by
  apply Fin.ext
  show min w.toInt.toNat (N - 1) = v.val
  rw [hw, Int.toNat_natCast]
  have := v.isLt
  omega

/-- A scalar broadcast to `[8192]` reads the scalar. -/
theorem bcast_scalar_apply {α : Type} (y : S_.Idx → α) (j : S8192.Idx) :
    broadcastInDim S8192 ![] bcast_S_S8192 y j = y ix0 :=
  broadcastInDim_apply _ bcast_S_S8192 y j ix0 (fun a => a.elim0)

/-- Floor division by two of a word that is not negative, as the host computes it: the truncated quotient, lowered by
    one when the signs differ and the remainder is not zero — which never happens here. -/
theorem floor_div_two (x : BitVec 32) (h : 0 ≤ x.toInt) :
    (Scalar.select
        (IntOp.andi
          (IntOp.cmpi .ne (if x = 0 then 0 else if x.msb then -1 else 1 : BitVec 32)
            (if (2#32 : BitVec 32) = 0 then 0 else if (2#32 : BitVec 32).msb then -1 else 1 : BitVec 32))
          (IntOp.cmpi .ne (IntOp.remsi .host x 2#32) 0#32))
        (IntOp.subi (IntOp.divsi .host x 2#32) 1#32) (IntOp.divsi .host x 2#32)).toInt = x.toInt / 2 := by
  have hs2 : (if (2#32 : BitVec 32) = 0 then 0 else if (2#32 : BitVec 32).msb then -1 else 1 : BitVec 32) = 1#32 := by decide
  have hnc : ¬ IntOp.SDivCorner x 2#32 := by
    intro hc
    rcases hc with hc | ⟨_, hc⟩ <;> exact absurd hc (by decide)
  have hdiv : IntOp.divsi .host x 2#32 = x.sdiv 2#32 := by unfold IntOp.divsi; rw [if_neg hnc]
  have hrem : IntOp.remsi .host x 2#32 = x.srem 2#32 := by unfold IntOp.remsi; rw [if_neg hnc]
  have hq : (x.sdiv 2#32).toInt = x.toInt / 2 := by
    rw [BitVec.toInt_sdiv_of_ne_or_ne x 2#32 (Or.inr (by decide))]
    show x.toInt.tdiv 2 = x.toInt / 2
    exact Int.tdiv_eq_ediv_of_nonneg h
  rw [hs2, hdiv, hrem]
  have hand : IntOp.andi (IntOp.cmpi .ne (if x = 0 then 0 else if x.msb then -1 else 1 : BitVec 32) 1#32)
      (IntOp.cmpi .ne (x.srem 2#32) 0#32) = 0#1 := by
    by_cases hx : x = 0
    · subst hx; decide
    · have hm : x.msb = false := by rw [BitVec.msb_eq_toInt]; exact decide_eq_false (by omega)
      rw [if_neg hx, hm]
      show IntOp.andi (IntOp.cmpi .ne 1#32 1#32) _ = 0#1
      have : IntOp.cmpi .ne (1#32 : BitVec 32) 1#32 = 0#1 := by decide
      rw [this]
      exact BitVec.zero_and
  rw [hand, select_zero, hq]

/-- The host's floor division of a table of words by the scalar two, read at a place whose word is not negative. -/
theorem floor_divide_two_apply (V : S8192.Idx → BitVec 32) (C : S_.Idx → BitVec 32) (hC : C = constantI S_ 32 2#32)
    (j : S8192.Idx) (hV : 0 ≤ (V j).toInt) :
    ((select (andi (cmpi .ne (signi V) (broadcastInDim S8192 ![] bcast_S_S8192 (signi C)))
              (cmpi .ne (Host.remsi V (broadcastInDim S8192 ![] bcast_S_S8192 C))
                (broadcastInDim S8192 ![] bcast_S_S8192 (constantI S_ 32 0#32))))
        (subi (Host.divsi V (broadcastInDim S8192 ![] bcast_S_S8192 C))
          (broadcastInDim S8192 ![] bcast_S_S8192 (constantI S_ 32 1#32)))
        (Host.divsi V (broadcastInDim S8192 ![] bcast_S_S8192 C)) : S8192.Idx → BitVec 32) j).toInt
      = (V j).toInt / 2 := by
  subst hC
  unfold select andi cmpi subi Host.divsi Host.remsi
  simp only [bcast_scalar_apply]
  exact floor_div_two (V j) hV

/-- A column of normalised indices read at a row: `I[p] < 0 ? I[p] + N : I[p]`, which is `I[p]` when that word is not negative. -/
theorem index_column_apply (I : S8192.Idx → BitVec 32) (NN : BitVec 32) (p : Fin 8192) (z : Fin 1)
    (hI : 0 ≤ (I (ix1 p)).toInt) :
    (broadcastInDim S8192x1 ![0] bcast_S8192_S8192x1_0
        (select (cmpi .slt I (broadcastInDim S8192 ![] bcast_S_S8192 (constantI S_ 32 0#32)))
          (addi I (broadcastInDim S8192 ![] bcast_S_S8192 (constantI S_ 32 NN))) I) : S8192x1.Idx → BitVec 32) (ix2 p z)
      = I (ix1 p) := by
  rw [broadcastInDim_apply _ bcast_S8192_S8192x1_0 _ (ix2 p z) (ix1 p) (fun a => match a with
    | ⟨0, _⟩ => by show p.val = if (8192 : Nat) = 1 then 0 else p.val; rw [if_neg (by decide)])]
  unfold select cmpi addi
  simp only [bcast_scalar_apply]
  exact normalize_nonneg _ _ hI

/-- The dispatched rows: the rows of `X` gathered at the normalised index table `I`, grouped by expert. -/
theorem dispatch_rows_apply (X : S4096x1024.Idx → EReal) (I : S8192.Idx → BitVec 32) (NN : BitVec 32)
    (e : Fin 8) (r k : Fin 1024) (t : Fin 4096) (hI : (I (ix1 (place e r))).toInt = (t.val : Int)) :
    (shapeCast S8x1024x1024
        (Host.gather gather_S4096x1024_S8192x1_S8192x1024_1_0_n_n_0_1_11024 X
          (broadcastInDim S8192x1 ![0] bcast_S8192_S8192x1_0
            (select (cmpi .slt I (broadcastInDim S8192 ![] bcast_S_S8192 (constantI S_ 32 0#32)))
              (addi I (broadcastInDim S8192 ![] bcast_S_S8192 (constantI S_ 32 NN))) I)))
        shapeCasts_S8192x1024_S8x1024x1024 : S8x1024x1024.Idx → EReal) (ix3 e r k) = X (ix2 t k) := by
  rw [shapeCast_apply _ shapeCasts_S8192x1024_S8x1024x1024 (ix3 e r k) (ix2 (place e r) k)
    (by rewrite [Shape.rowMajor_val_two, Shape.rowMajor_val_three]
        show (e.val * 1024 + r.val) * 1024 + k.val = (e.val * 1024 + r.val) * 1024 + k.val; rfl)]
  show Host.gather (GatherRows.rowsDims 4096 1024 8192 _) _ _ (ix2 (place e r) k) = _
  rw [GatherRows.gather_rows_apply (by norm_num)]
  refine congrArg (fun s => X (ix2 s k)) (clamp_eq _ t ?_ _)
  rw [index_column_apply I NN (place e r) 0 (by rw [hI]; exact Int.natCast_nonneg _), hI]

/-- The dispatched weights: the flattened weights gathered at the normalised index table `I`, grouped by expert. -/
theorem dispatch_weights_apply (Wt : S4096x2.Idx → EReal) (I : S8192.Idx → BitVec 32) (NN : BitVec 32)
    (e : Fin 8) (r : Fin 1024) (z : Fin 1) (s : Fin 8192) (hI : (I (ix1 (place e r))).toInt = (s.val : Int)) :
    (shapeCast S8x1024x1
        (Host.gather gather_S8192_S8192x1_S8192_n_0_n_n_0_1_1 (shapeCast S8192 Wt shapeCasts_S4096x2_S8192)
          (broadcastInDim S8192x1 ![0] bcast_S8192_S8192x1_0
            (select (cmpi .slt I (broadcastInDim S8192 ![] bcast_S_S8192 (constantI S_ 32 0#32)))
              (addi I (broadcastInDim S8192 ![] bcast_S_S8192 (constantI S_ 32 NN))) I)))
        shapeCasts_S8192_S8x1024x1 : S8x1024x1.Idx → EReal) (ix3 e r z) = Wt (ix2 (tokOf s) (kOf s)) := by
  rw [shapeCast_apply _ shapeCasts_S8192_S8x1024x1 (ix3 e r z) (ix1 (place e r))
    (by rewrite [Shape.rowMajor_val_one, Shape.rowMajor_val_three]
        have hz := z.isLt
        show e.val * 1024 + r.val = (e.val * 1024 + r.val) * 1 + z.val; omega)]
  show Host.gather (GatherRows.flatDims 8192 8192 _) _ _ (ix1 (place e r)) = _
  rw [GatherRows.gather_flat_apply (by norm_num)]
  rw [clamp_eq _ s (by rw [index_column_apply I NN (place e r) 0 (by rw [hI]; exact Int.natCast_nonneg _), hI]) _]
  exact shapeCast_apply _ shapeCasts_S4096x2_S8192 (ix1 s) (ix2 (tokOf s) (kOf s))
    (by rewrite [Shape.rowMajor_val_two, Shape.rowMajor_val_one]
        have hs := s.isLt
        show s.val / 2 * 2 + s.val % 2 = s.val; omega)

/-! ## Before the first region -/

section Before

/-- After the first two operations: the rounded tokens, the flattened ids, and the weights untouched. -/
theorem W1_facts (c : Dev nD) :
    (W1 m ρ c (Proc.devRef .tc main_v0) : S4096x1024.Idx → EReal) = m ((c.tc : Thread nD τ).loc main_arg0)
    ∧ (W1 m ρ c (Proc.devRef .tc main_v1) : S8192.Idx → BitVec 32) = keysOf (m ((c.tc : Thread nD τ).loc main_arg9))
    ∧ W1 m ρ c (Proc.devRef .tc main_arg1) = m ((c.tc : Thread nD τ).loc main_arg1) := by
  refine ⟨?_, ?_, ?_⟩
  · dsimp only [W1, hostOps0]
    after_results_simp
    rfl
  · dsimp only [W1, hostOps0]
    after_results_simp
    funext i
    show shapeCast _ (m ((c.tc : Thread nD τ).loc main_arg9)) shapeCasts_S4096x2_S8192 i = _
    exact shapeCast_apply _ shapeCasts_S4096x2_S8192 i (ix2 (tokOf (i 0)) (kOf (i 0)))
      (by rewrite [Shape.rowMajor_val_two, Shape.rowMajor_val_one]; have h0 : (i 0).val < 8192 := (i 0).isLt
          show ((i 0).val) / 2 * 2 + ((i 0).val) % 2 = (i 0).val; omega)
  · dsimp only [W1, hostOps0]
    after_results_simp

end Before

section Before2

/-- After the first argsort: the dispatch order. -/
theorem W2_facts (c : Dev nD) :
    (W2 m ρ c (Proc.devRef .tc main_v0) : S4096x1024.Idx → EReal) = m ((c.tc : Thread nD τ).loc main_arg0)
    ∧ (W2 m ρ c (Proc.devRef .tc main_v2) : S8192.Idx → BitVec 32)
        = ArgsortLib.argsort (keysOf (m ((c.tc : Thread nD τ).loc main_arg9)))
    ∧ W2 m ρ c (Proc.devRef .tc main_arg1) = m ((c.tc : Thread nD τ).loc main_arg1) := by
  obtain ⟨h0, h1, ha⟩ := W1_facts m ρ c
  show StableHlo.after hostOps0_1 (W1 m ρ c) (Proc.devRef .tc main_v0) = _
    ∧ StableHlo.after hostOps0_1 (W1 m ρ c) (Proc.devRef .tc main_v2) = _
    ∧ StableHlo.after hostOps0_1 (W1 m ρ c) (Proc.devRef .tc main_arg1) = _
  generalize W1 m ρ c = F at h0 h1 ha ⊢
  refine ⟨?_, ?_, ?_⟩
  · dsimp only [hostOps0_1]
    after_results_simp
    exact h0
  · dsimp only [hostOps0_1]
    after_results_simp
    show (Host.sort2 S8192 0 comparator_i32_i32_d0 (F (Proc.devRef .tc main_v1)) (iotaInDim S8192 32 0)).2 = _
    rw [h1]
    exact ArgsortLib.sort2_snd_iota comparator_i32_i32_d0 (fun _ _ => rfl) _
  · dsimp only [hostOps0_1]
    after_results_simp
    exact ha

/-- After the constant two. -/
theorem W3_facts (c : Dev nD) :
    (W3 m ρ c (Proc.devRef .tc main_v0) : S4096x1024.Idx → EReal) = m ((c.tc : Thread nD τ).loc main_arg0)
    ∧ (W3 m ρ c (Proc.devRef .tc main_v2) : S8192.Idx → BitVec 32)
        = ArgsortLib.argsort (keysOf (m ((c.tc : Thread nD τ).loc main_arg9)))
    ∧ W3 m ρ c (Proc.devRef .tc main_arg1) = m ((c.tc : Thread nD τ).loc main_arg1)
    ∧ (W3 m ρ c (Proc.devRef .tc main_c) : S_.Idx → BitVec 32) = constantI S_ 32 2#32 := by
  obtain ⟨h0, h2, ha⟩ := W2_facts m ρ c
  show StableHlo.after hostOps0_2 (W2 m ρ c) (Proc.devRef .tc main_v0) = _
    ∧ StableHlo.after hostOps0_2 (W2 m ρ c) (Proc.devRef .tc main_v2) = _
    ∧ StableHlo.after hostOps0_2 (W2 m ρ c) (Proc.devRef .tc main_arg1) = _
    ∧ StableHlo.after hostOps0_2 (W2 m ρ c) (Proc.devRef .tc main_c) = _
  generalize W2 m ρ c = F at h0 h2 ha ⊢
  refine ⟨?_, ?_, ?_, ?_⟩
  · dsimp only [hostOps0_2]
    after_results_simp
    exact h0
  · dsimp only [hostOps0_2]
    after_results_simp
    exact h2
  · dsimp only [hostOps0_2]
    after_results_simp
    exact ha
  · dsimp only [hostOps0_2]
    after_results_simp

end Before2

section Before4

/-- After the floor division: the token of each sorted place. -/
theorem W4_facts (c : Dev nD) :
    (W4 m ρ c (Proc.devRef .tc main_v0) : S4096x1024.Idx → EReal) = m ((c.tc : Thread nD τ).loc main_arg0)
    ∧ (W4 m ρ c (Proc.devRef .tc main_v2) : S8192.Idx → BitVec 32)
        = ArgsortLib.argsort (keysOf (m ((c.tc : Thread nD τ).loc main_arg9)))
    ∧ W4 m ρ c (Proc.devRef .tc main_arg1) = m ((c.tc : Thread nD τ).loc main_arg1)
    ∧ ∀ j : S8192.Idx, ((W4 m ρ c (Proc.devRef .tc main_v3) : S8192.Idx → BitVec 32) j).toInt
        = ((tokOf (ordOf (m ((c.tc : Thread nD τ).loc main_arg9)) (j 0))).val : Int) := by
  obtain ⟨h0, h2, ha, hc⟩ := W3_facts m ρ c
  show StableHlo.after hostOps0_3 (W3 m ρ c) (Proc.devRef .tc main_v0) = _
    ∧ StableHlo.after hostOps0_3 (W3 m ρ c) (Proc.devRef .tc main_v2) = _
    ∧ StableHlo.after hostOps0_3 (W3 m ρ c) (Proc.devRef .tc main_arg1) = _
    ∧ ∀ j : S8192.Idx, ((StableHlo.after hostOps0_3 (W3 m ρ c) (Proc.devRef .tc main_v3) : S8192.Idx → BitVec 32) j).toInt = _
  generalize W3 m ρ c = F at h0 h2 ha hc ⊢
  refine ⟨?_, ?_, ?_, ?_⟩
  · dsimp only [hostOps0_3]
    after_results_simp
    exact h0
  · dsimp only [hostOps0_3]
    after_results_simp
    exact h2
  · dsimp only [hostOps0_3]
    after_results_simp
    exact ha
  · intro j
    dsimp only [hostOps0_3]
    after_results_simp
    have hV : ((F (Proc.devRef .tc main_v2) : S8192.Idx → BitVec 32) j).toInt
        = ((ordOf (m ((c.tc : Thread nD τ).loc main_arg9)) (j 0)).val : Int) := by
      rw [h2]; exact ArgsortLib.argsort_toInt (by norm_num) _ j
    refine (floor_divide_two_apply (F (Proc.devRef .tc main_v2)) (F (Proc.devRef .tc main_c)) hc j
      (by rw [hV]; exact Int.natCast_nonneg _)).trans ?_
    rw [hV]
    show ((ordOf (m ((c.tc : Thread nD τ).loc main_arg9)) (j 0)).val : Int) / 2
      = (((ordOf (m ((c.tc : Thread nD τ).loc main_arg9)) (j 0)).val / 2 : Nat) : Int)
    omega

end Before4

section Entry0

/-- The dispatched rows as the first region finds them: place (e, r) is the token of the slot sorted there. -/
theorem V5_rows (c : Dev nD) (e : Fin 8) (r k : Fin 1024) :
    V5 m ρ c main_v11 (ix3 e r k)
      = m ((c.tc : Thread nD τ).loc main_arg0) (ix2 (tokOf (ordOf (m ((c.tc : Thread nD τ).loc main_arg9)) (place e r))) k) := by
  obtain ⟨h0, h2, ha, h3⟩ := W4_facts m ρ c
  show StableHlo.after hostOps0_4 (W4 m ρ c) (Proc.devRef .tc main_v11) (ix3 e r k) = _
  generalize W4 m ρ c = F at h0 h2 ha h3 ⊢
  dsimp only [hostOps0_4]
  after_results_simp
  refine (dispatch_rows_apply (F (Proc.devRef .tc main_v0)) (F (Proc.devRef .tc main_v3)) 4096#32 e r k
    (tokOf (ordOf (m ((c.tc : Thread nD τ).loc main_arg9)) (place e r))) (h3 (ix1 (place e r)))).trans ?_
  rw [h0]

/-- The dispatched weights as the first region finds them: place (e, r) carries the weight of the slot sorted there. -/
theorem V5_weights (c : Dev nD) (e : Fin 8) (r : Fin 1024) (z : Fin 1) :
    V5 m ρ c main_v20 (ix3 e r z)
      = m ((c.tc : Thread nD τ).loc main_arg1) (ix2 (tokOf (ordOf (m ((c.tc : Thread nD τ).loc main_arg9)) (place e r)))
          (kOf (ordOf (m ((c.tc : Thread nD τ).loc main_arg9)) (place e r)))) := by
  obtain ⟨h0, h2, ha, h3⟩ := W4_facts m ρ c
  show StableHlo.after hostOps0_4 (W4 m ρ c) (Proc.devRef .tc main_v20) (ix3 e r z) = _
  generalize W4 m ρ c = F at h0 h2 ha h3 ⊢
  dsimp only [hostOps0_4]
  after_results_simp
  refine (dispatch_weights_apply (F (Proc.devRef .tc main_arg1)) (F (Proc.devRef .tc main_v2)) 8192#32 e r z
    (ordOf (m ((c.tc : Thread nD τ).loc main_arg9)) (place e r))
    (by rw [h2]; exact ArgsortLib.argsort_toInt (by norm_num) _ _)).trans ?_
  rw [ha]

end Entry0

end Cert.KernelValue

end
-- ==== Proof.KHost1.lean ====
/-
  The host operations between the two regions, read at an index.

  The first region's rows are flattened (row `j` is expert `j / 1024`'s row `j % 1024`), gathered at the argsort of
  the dispatch order — the sorted place `inv s` of each slot `s` —, regrouped as (token, slot, column), widened (the
  identity on extended reals) and summed over the two slots from zero. The rounded tokens and the dispatch order are
  still in their buffers.
-/
import proofs.«157043_j62388694942421_2_alg».proof.Proof.KHost0

set_option maxRecDepth 16384

noncomputable section

open scoped BigOperators

namespace Cert.KernelValue

open Idealize.ShloMosaic Idealize.ShloMosaic.ValueIdx Idealize.ShloMosaic.TcCoe Idealize.SL.Sem
open Cert.KernelIdeal Cert.KernelIdeal.Gen Cert.MoeSpec

variable (m : (ℓ : Loc nD τ sig) → Buf (Elt Ideal) ℓ) (ρ : Dev nD → PrngReg)

/-- The sum over a token's two slots, from zero. -/
theorem sum_slots_apply (Z : S4096x2x1024.Idx → EReal) (t : Fin 4096) (d : Fin 1024) :
    (Host.reduceAdd (F := Ideal) Z (constant (F := Ideal) S_ .f32 0x00000000#32) reducesTo_S4096x2x1024_S4096x1024_d1 h_S_
        : S4096x1024.Idx → EReal) (ix2 t d) = ∑ k : Fin 2, Z (ix3 t k d) := by
  simp only [Host.reduceAdd, Ideal.hostReduceAdd_def]
  rw [Ideal.hostReduceAdd_single reducesTo_S4096x2x1024_S4096x1024_d1 (by decide)]
  show Ideal.ofBits .f32 0x00000000#32 + _ = _
  rw [Ideal.ofBits_zero_f32, zero_add]
  refine Finset.sum_congr rfl fun k _ => ?_
  exact congrArg Z (funext fun a => Fin.ext (by match a with | ⟨0, _⟩ => rfl | ⟨1, _⟩ => rfl | ⟨2, _⟩ => rfl))

/-- The returned rows: the expert rows `Y`, flattened, gathered at the normalised index table `I`, regrouped by token
    and slot, and widened (the identity on extended reals). -/
theorem returned_rows_apply (Y : S8x1024x1024.Idx → EReal) (I : S8192.Idx → BitVec 32) (NN : BitVec 32)
    (t : Fin 4096) (k : Fin 2) (d : Fin 1024) (p : Fin 8192) (hI : (I (ix1 (slot t k))).toInt = (p.val : Int)) :
    (extf (F := Ideal) (φ := .bf16) .f32
        (shapeCast S4096x2x1024
          (Host.gather gather_S8192x1024_S8192x1_S8192x1024_1_0_n_n_0_1_11024
            (shapeCast S8192x1024 Y shapeCasts_S8x1024x1024_S8192x1024)
            (broadcastInDim S8192x1 ![0] bcast_S8192_S8192x1_0
              (select (cmpi .slt I (broadcastInDim S8192 ![] bcast_S_S8192 (constantI S_ 32 0#32)))
                (addi I (broadcastInDim S8192 ![] bcast_S_S8192 (constantI S_ 32 NN))) I)))
          shapeCasts_S8192x1024_S4096x2x1024) bitsLt_bf16_f32 : S4096x2x1024.Idx → EReal) (ix3 t k d)
      = Y (ix3 (expOf p) (rowOf p) d) := by
  rw [extf_apply]
  rw [shapeCast_apply _ shapeCasts_S8192x1024_S4096x2x1024 (ix3 t k d) (ix2 (slot t k) d)
    (by rewrite [Shape.rowMajor_val_two, Shape.rowMajor_val_three]
        show (t.val * 2 + k.val) * 1024 + d.val = (t.val * 2 + k.val) * 1024 + d.val; rfl)]
  show Host.gather (GatherRows.rowsDims 8192 1024 8192 _) _ _ (ix2 (slot t k) d) = _
  rw [GatherRows.gather_rows_apply (by norm_num)]
  rw [clamp_eq _ p (by rw [index_column_apply I NN (slot t k) 0 (by rw [hI]; exact Int.natCast_nonneg _), hI]) _]
  exact shapeCast_apply _ shapeCasts_S8x1024x1024_S8192x1024 (ix2 p d) (ix3 (expOf p) (rowOf p) d)
    (by rewrite [Shape.rowMajor_val_three, Shape.rowMajor_val_two]
        have hp := p.isLt
        show (p.val / 1024 * 1024 + p.val % 1024) * 1024 + d.val = p.val * 1024 + d.val; omega)

/-! ## Between the regions -/

/-- The tokens as the second region finds them (rounded: the identity on extended reals). -/
theorem V9_tokens (c : Dev nD) (i : S4096x1024.Idx) :
    V9 m ρ c main_v0 i = m ((c.tc : Thread nD τ).loc main_arg0) i := by
  have h9 : W9 m ρ c (Proc.devRef .tc main_v0) = W5 m ρ c (Proc.devRef .tc main_v0) := by
    dsimp only [W9, W8, W7, hostOps1, hostOps1_1, hostOps1_2]
    after_results_simp
    exact W6_of_ne m ρ c main_v0 (by decide)
  have h5 : (W5 m ρ c (Proc.devRef .tc main_v0) : S4096x1024.Idx → EReal) = m ((c.tc : Thread nD τ).loc main_arg0) := by
    obtain ⟨h0, _, _, _⟩ := W4_facts m ρ c
    show StableHlo.after hostOps0_4 (W4 m ρ c) (Proc.devRef .tc main_v0) = _
    generalize W4 m ρ c = F at h0 ⊢
    dsimp only [hostOps0_4]
    after_results_simp
    exact h0
  show W9 m ρ c (Proc.devRef .tc main_v0) i = _
  rw [h9, h5]

section Entry1

/-- The dispatch order is still in its buffer when the first region ends. -/
theorem W6_order (c : Dev nD) :
    (W6 m ρ c (Proc.devRef .tc main_v2) : S8192.Idx → BitVec 32)
      = ArgsortLib.argsort (keysOf (m ((c.tc : Thread nD τ).loc main_arg9))) := by
  rw [W6_of_ne m ρ c main_v2 (by decide)]
  obtain ⟨_, h2, _, _⟩ := W4_facts m ρ c
  show StableHlo.after hostOps0_4 (W4 m ρ c) (Proc.devRef .tc main_v2) = _
  generalize W4 m ρ c = F at h2 ⊢
  dsimp only [hostOps0_4]
  after_results_simp
  exact h2

/-- The first region's output array as the following host operations find it. -/
abbrev expertRows (c : Dev nD) : S8x1024x1024.Idx → EReal := W6 m ρ c (Proc.devRef .tc main_v21)

/-- The routed sums as the second region finds them: token t adds the first region's rows at the sorted places of
    its two slots. -/
theorem V9_routed (c : Dev nD) (t : Fin 4096) (d : Fin 1024) :
    (V9 m ρ c main_v33 : S4096x1024.Idx → EReal) (ix2 t d)
      = ∑ k : Fin 2, expertRows m ρ c
          (ix3 (expOf (invOf (m ((c.tc : Thread nD τ).loc main_arg9)) (slot t k)))
            (rowOf (invOf (m ((c.tc : Thread nD τ).loc main_arg9)) (slot t k))) d) := by
  have h2 := W6_order m ρ c
  show StableHlo.after hostOps1_2 (StableHlo.after hostOps1_1 (StableHlo.after hostOps1 (W6 m ρ c)))
      (Proc.devRef .tc main_v33) (ix2 t d)
    = ∑ k : Fin 2, expertRows m ρ c
        (ix3 (expOf (invOf (m ((c.tc : Thread nD τ).loc main_arg9)) (slot t k)))
          (rowOf (invOf (m ((c.tc : Thread nD τ).loc main_arg9)) (slot t k))) d)
  dsimp only [expertRows]
  generalize W6 m ρ c = F at h2 ⊢
  dsimp only [hostOps1, hostOps1_1, hostOps1_2]
  after_results_simp
  refine (sum_slots_apply _ t d).trans (Finset.sum_congr rfl fun k _ => ?_)
  refine returned_rows_apply (F (Proc.devRef .tc main_v21)) _ 8192#32 t k d
    (invOf (m ((c.tc : Thread nD τ).loc main_arg9)) (slot t k)) ?_
  show ((Host.sort2 S8192 0 comparator_i32_i32_d0 (F (Proc.devRef .tc main_v2)) (iotaInDim S8192 32 0)).2
      (ix1 (slot t k))).toInt = _
  rw [h2, ArgsortLib.sort2_snd_iota comparator_i32_i32_d0 (fun _ _ => rfl)]
  exact ArgsortLib.argsort_toInt (by norm_num) _ _

end Entry1

end Cert.KernelValue

end
-- ==== Proof.KHostArgs.lean ====
/-
  The weight arrays as the regions find them.

  No host operation writes an argument array, and the first region writes only its own output, so each region finds
  the weight arrays it reads holding what they held at launch: the fold of the buffer contents through the program,
  read at a weight array, walks back stretch by stretch to the launch memory.
-/
import proofs.«157043_j62388694942421_2_alg».proof.Proof.Gen.KernelIdeal.Frame
import Idealize.ShloMosaic.PureOps.Ideal

set_option maxRecDepth 16384

noncomputable section

namespace Cert.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- No host operation before the first region writes this weight array: the region finds it as launched. -/
theorem V5_arg2 (c : Dev nD) : V5 m ρ c main_arg2 = m ((c.tc : Thread nD τ).loc main_arg2) :=
  calc V5 m ρ c main_arg2
    _ = W5 m ρ c (Proc.devRef .tc main_arg2) := rfl
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl

/-- No host operation before the first region writes this weight array: the region finds it as launched. -/
theorem V5_arg3 (c : Dev nD) : V5 m ρ c main_arg3 = m ((c.tc : Thread nD τ).loc main_arg3) :=
  calc V5 m ρ c main_arg3
    _ = W5 m ρ c (Proc.devRef .tc main_arg3) := rfl
    _ = W4 m ρ c (Proc.devRef .tc main_arg3) := StableHlo.after_of_forall_not_mem (b := Proc.devRef .tc main_arg3) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg3) := rfl

/-- No host operation before the first region writes this weight array: the region finds it as launched. -/
theorem V5_arg4 (c : Dev nD) : V5 m ρ c main_arg4 = m ((c.tc : Thread nD τ).loc main_arg4) :=
  calc V5 m ρ c main_arg4
    _ = W5 m ρ c (Proc.devRef .tc main_arg4) := rfl
    _ = W4 m ρ c (Proc.devRef .tc main_arg4) := StableHlo.after_of_forall_not_mem (b := Proc.devRef .tc main_arg4) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg4) := rfl

/-- No host operation and not the first region writes this shared weight array: the second region finds it as launched. -/
theorem V9_arg5 (c : Dev nD) : V9 m ρ c main_arg5 = m ((c.tc : Thread nD τ).loc main_arg5) :=
  calc V9 m ρ c main_arg5
    _ = W9 m ρ c (Proc.devRef .tc main_arg5) := rfl
    _ = W8 m ρ c (Proc.devRef .tc main_arg5) := StableHlo.after_of_forall_not_mem (b := Proc.devRef .tc main_arg5) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg5) := StableHlo.after_of_forall_not_mem (b := Proc.devRef .tc main_arg5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg5) := rfl

/-- No host operation and not the first region writes this shared weight array: the second region finds it as launched. -/
theorem V9_arg6 (c : Dev nD) : V9 m ρ c main_arg6 = m ((c.tc : Thread nD τ).loc main_arg6) :=
  calc V9 m ρ c main_arg6
    _ = W9 m ρ c (Proc.devRef .tc main_arg6) := rfl
    _ = W8 m ρ c (Proc.devRef .tc main_arg6) := StableHlo.after_of_forall_not_mem (b := Proc.devRef .tc main_arg6) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := StableHlo.after_of_forall_not_mem (b := Proc.devRef .tc main_arg6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg6) := rfl

/-- No host operation and not the first region writes this shared weight array: the second region finds it as launched. -/
theorem V9_arg7 (c : Dev nD) : V9 m ρ c main_arg7 = m ((c.tc : Thread nD τ).loc main_arg7) :=
  calc V9 m ρ c main_arg7
    _ = W9 m ρ c (Proc.devRef .tc main_arg7) := rfl
    _ = W8 m ρ c (Proc.devRef .tc main_arg7) := StableHlo.after_of_forall_not_mem (b := Proc.devRef .tc main_arg7) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := StableHlo.after_of_forall_not_mem (b := Proc.devRef .tc main_arg7) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := StableHlo.after_of_forall_not_mem (b := Proc.devRef .tc main_arg7) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg7) := rfl

/-- No host operation and not the first region writes this shared weight array: the second region finds it as launched. -/
theorem V9_arg8 (c : Dev nD) : V9 m ρ c main_arg8 = m ((c.tc : Thread nD τ).loc main_arg8) :=
  calc V9 m ρ c main_arg8
    _ = W9 m ρ c (Proc.devRef .tc main_arg8) := rfl
    _ = W8 m ρ c (Proc.devRef .tc main_arg8) := StableHlo.after_of_forall_not_mem (b := Proc.devRef .tc main_arg8) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := StableHlo.after_of_forall_not_mem (b := Proc.devRef .tc main_arg8) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := StableHlo.after_of_forall_not_mem (b := Proc.devRef .tc main_arg8) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg8) := rfl

end Cert.KernelValue

end
-- ==== Proof.KHost.lean ====
/-
  The host operations of the kernel program, read at an index.

  Before the first region: the tokens are rounded (the identity on extended reals); the 8192 routing slots are sorted
  by expert id (`ord`); place r of the dispatched rows is token `ord r / 2`, and its weight is the flattened routing
  weight at slot `ord r`. Between the regions: the expert rows are read back at `inv s` (the sorted place of slot s)
  and each token's two slots are added. The weight arrays are written by no host operation, so each region finds them
  as launched. The three parts are in the three imported modules.
-/
import proofs.«157043_j62388694942421_2_alg».proof.Proof.KHost0
import proofs.«157043_j62388694942421_2_alg».proof.Proof.KHost1
import proofs.«157043_j62388694942421_2_alg».proof.Proof.KHostArgs
-- ==== Proof.KValue.lean ====
/-
  The kernel program's result is the layer's specification.

  The second region leaves `routed sums + shared part` (its whole-array function of the arrays it finds); the routed
  sums are, per token, the first region's rows at the sorted places of the token's two slots; the first region's row
  at place (e, r) is expert e's output for the token sorted there, times the weight of the slot sorted there. The slot
  sorted at the sorted place of slot s is s itself (the second sort inverts the first), so the weight met at the
  place of slot 2 t + k is w (t, k): the routed sums are the specification's.
-/
import proofs.«157043_j62388694942421_2_alg».proof.Proof.Gen.KernelIdeal.Frame
import proofs.«157043_j62388694942421_2_alg».proof.Proof.KRegion0
import proofs.«157043_j62388694942421_2_alg».proof.Proof.KFinal1
import proofs.«157043_j62388694942421_2_alg».proof.Proof.KHost

set_option maxRecDepth 16384

noncomputable section

open scoped BigOperators

namespace Cert.KernelValue

open Idealize.ShloMosaic Idealize.ShloMosaic.ValueIdx Idealize.ShloMosaic.TcCoe Idealize.SL.Sem
open Cert.KernelIdeal Cert.KernelIdeal.Gen Cert.MoeSpec

/-- A sorted place is the place of its expert and row. -/
theorem place_exp_row (j : Fin 8192) : place (expOf j) (rowOf j) = j :=
  Fin.ext (by show j.val / 1024 * 1024 + j.val % 1024 = j.val; omega)
/-- Slot 2 t + k belongs to token t … -/
theorem tokOf_slot (t : Fin 4096) (k : Fin 2) : tokOf (slot t k) = t :=
  Fin.ext (by show (t.val * 2 + k.val) / 2 = t.val; have := k.isLt; omega)
/-- … and is its k-th. -/
theorem kOf_slot (t : Fin 4096) (k : Fin 2) : kOf (slot t k) = k :=
  Fin.ext (by show (t.val * 2 + k.val) % 2 = k.val; have := k.isLt; omega)

variable (m : (ℓ : Loc nD τ sig) → Buf (Elt Ideal) ℓ) (ρ : Dev nD → PrngReg)

/-- The first region's row at place (e, r): expert e's output for the token sorted there, times the weight of the
    slot sorted there. -/
theorem expertRows_apply (c : Dev nD) (e : Fin 8) (r d : Fin 1024) :
    expertRows m ρ c (ix3 e r d)
      = expertOut (m ((c.tc : Thread nD τ).loc main_arg0)) (m ((c.tc : Thread nD τ).loc main_arg2))
          (m ((c.tc : Thread nD τ).loc main_arg3)) (m ((c.tc : Thread nD τ).loc main_arg4))
          (ordOf (m ((c.tc : Thread nD τ).loc main_arg9))) e r d
        * m ((c.tc : Thread nD τ).loc main_arg1)
            (ix2 (tokOf (ordOf (m ((c.tc : Thread nD τ).loc main_arg9)) (place e r)))
              (kOf (ordOf (m ((c.tc : Thread nD τ).loc main_arg9)) (place e r)))) := by
  show W6 m ρ c (Proc.devRef .tc (Pipeline.arrRef spec0 5)) (ix3 e r d) = _
  rw [W6_arr, final0]
  show expertEntry (V5 m ρ c main_v11) (V5 m ρ c main_arg2) (V5 m ρ c main_arg3) (V5 m ρ c main_arg4) (V5 m ρ c main_v20) e r d = _
  unfold expertEntry expertOut
  rw [V5_arg2, V5_arg3, V5_arg4, V5_weights]
  refine congrArg (· * _) (Finset.sum_congr rfl fun f _ => ?_)
  refine congrArg (· * _) ?_
  refine congrArg₂ gated (Finset.sum_congr rfl fun k _ => ?_) (Finset.sum_congr rfl fun k _ => ?_)
  · rw [V5_rows]
  · rw [V5_rows]

/-- The result buffer at the end of the run holds the specification of the argument arrays. -/
theorem kernel_value (c : Dev nD) :
    W10 m ρ c (Proc.devRef .tc main_v34)
      = MoeSpec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  show W10 m ρ c (Proc.devRef .tc (Pipeline.arrRef spec1 6)) = _
  rw [W10_arr, final1]
  funext i
  obtain ⟨t, d, rfl⟩ : ∃ (t : Fin 4096) (d : Fin 1024), i = ix2 t d := ⟨i 0, i 1, eq_ix2 i⟩
  have hsh : sharedOut (V9 m ρ c main_v0) (V9 m ρ c main_arg5) (V9 m ρ c main_arg6) (V9 m ρ c main_arg7) (V9 m ρ c main_arg8) t d
      = sharedOut (m ((c.tc : Thread nD τ).loc main_arg0)) (m ((c.tc : Thread nD τ).loc main_arg5))
          (m ((c.tc : Thread nD τ).loc main_arg6)) (m ((c.tc : Thread nD τ).loc main_arg7)) (m ((c.tc : Thread nD τ).loc main_arg8)) t d := by
    rw [V9_arg5, V9_arg6, V9_arg7, V9_arg8,
      show (V9 m ρ c main_v0 : S4096x1024.Idx → EReal) = m ((c.tc : Thread nD τ).loc main_arg0) from funext (V9_tokens m ρ c)]
  have hr : (∑ k : Fin 2, expertRows m ρ c
          (ix3 (expOf (invOf (m ((c.tc : Thread nD τ).loc main_arg9)) (slot t k)))
            (rowOf (invOf (m ((c.tc : Thread nD τ).loc main_arg9)) (slot t k))) d))
      = routed (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (ordOf (m ((c.tc : Thread nD τ).loc main_arg9))) (invOf (m ((c.tc : Thread nD τ).loc main_arg9))) t d := by
    unfold routed
    refine Finset.sum_congr rfl fun k _ => ?_
    rw [expertRows_apply, place_exp_row, ord_inv, tokOf_slot, kOf_slot]
  exact congrArg₂ (· + ·) ((V9_routed m ρ c t d).trans hr) hsh

end Cert.KernelValue

end
-- ==== Proof.RefIsSpec.lean ====
/-
  The reference program is the specification, index by index.

  The reference flattens the expert ids, sorts them stably carrying an iota (the dispatch order), replicates every token
  once per routing slot, gathers the replicated rows in dispatch order, groups them by expert (1024 rows each), applies
  each expert's gated two-layer map, flattens the result, gathers it back with the argsort of the dispatch order (the
  inverse permutation), weights each slot's row and adds the two slots of a token; then it adds the shared gated map of
  the token scaled by a sigmoid of a linear score. Each stage below is read at explicit coordinates: the two sorts as the
  argsort of the keys and the argsort of that argsort, the index normalisation `a < 0 ? a + 8192 : a` as the identity on
  words that are not negative, the two gathers as whole-row reads at the argsort's positions, the reshapes by division
  and remainder, the contractions as sums over the contracted coordinate, and the sigmoid `1 / (1 + exp (-g))` as the
  logistic function.
-/
import proofs.«157043_j62388694942421_2_alg».proof.Proof.Gen.ReferenceIdeal.Read
import proofs.«157043_j62388694942421_2_alg».proof.Proof.MoeSpec
import proofs.«157043_j62388694942421_2_alg».proof.Proof.LibArgsort
import proofs.«157043_j62388694942421_2_alg».proof.Proof.LibGatherRows

noncomputable section

open scoped BigOperators

namespace Cert.RefSpec

open Cert.ReferenceIdeal Cert.ReferenceIdeal.Gen Idealize.ShloMosaic.TcCoe Idealize.SL.Sem Idealize.ShloMosaic.StableHlo Cert.ReferenceIdeal.Read Idealize.ShloMosaic Idealize.ShloMosaic.ValueIdx
  Idealize.ShloMosaic.ArgsortLib Idealize.ShloMosaic.GatherRows Cert.MoeSpec

/-- The word `0x3F800000` is the number one. -/
theorem ofBits_one_f32 : Ideal.ofBits .f32 0x3F800000#32 = 1 := by
  simp [Ideal.ofBits, Ideal.ieee]
  rw [← EReal.coe_mul, ← EReal.coe_one]
  congr 1
  norm_num

section Shared

variable (x0 : (⟨S4096x1024, .f32⟩ : BufTy).Contents (Elt Ideal))
  (x5 x6 x7 : (⟨S1024x1024, .f32⟩ : BufTy).Contents (Elt Ideal))
  (x8 : (⟨S1024x1, .f32⟩ : BufTy).Contents (Elt Ideal))

/-- The linear score of token `t`. -/
theorem score_apply (t : Fin 4096) (z : Fin 1) :
    val_main_v48 (F := Ideal) x0 x8 (ix2 t z) = ∑ k : Fin 1024, x0 (ix2 t k) * x8 (ix2 k (0 : Fin 1)) := by
  rw [val_main_v48_apply]
  refine Finset.sum_congr rfl fun k _ => ?_
  have el : lidx_main_v48 (ix2 t z) k = ix2 t k :=
    funext fun a => Fin.ext (by match a with | ⟨0, _⟩ => rfl | ⟨1, _⟩ => rfl)
  have er : ridx_main_v48 (ix2 t z) k = ix2 k (0 : Fin 1) :=
    funext fun a => Fin.ext (by match a with | ⟨0, _⟩ => rfl | ⟨1, _⟩ => exact congrArg Fin.val (Subsingleton.elim z 0))
  rw [el, er]

/-- The sigmoid gate of token `t`, broadcast along the columns. -/
theorem gate_apply (t : Fin 4096) (d : Fin 1024) :
    val_main_v55 (F := Ideal) x0 x8 (ix2 t d) = Ideal.logistic (∑ k : Fin 1024, x0 (ix2 t k) * x8 (ix2 k (0 : Fin 1))) := by
  have ei : idx_main_v55 (ix2 t d) = ix2 t (0 : Fin 1) :=
    funext fun a => Fin.ext (by match a with | ⟨0, _⟩ => rfl | ⟨1, _⟩ => rfl)
  rw [val_main_v55_apply, ei, val_main_v54_apply, val_main_v53_apply, val_main_cst_8_apply, val_main_v52_apply,
    val_main_v51_apply, val_main_cst_7_apply, val_main_v50_apply, val_main_v49_apply, score_apply]
  simp only [Ideal.ofBits_def, ofBits_one_f32, Ideal.hostDivf_def, Ideal.addf_def, Ideal.hostUnary_exp_def,
    Ideal.hostNegf_def, Ideal.negf_def]
  rfl

/-- The shared gate projection `x · swg` at `(t, f)`. -/
theorem sharedG_apply (t : Fin 4096) (f : Fin 1024) :
    val_main_v37 (F := Ideal) x0 x5 (ix2 t f) = ∑ k : Fin 1024, x0 (ix2 t k) * x5 (ix2 k f) := by
  rw [val_main_v37_apply]
  refine Finset.sum_congr rfl fun k _ => ?_
  have el : lidx_main_v37 (ix2 t f) k = ix2 t k :=
    funext fun a => Fin.ext (by match a with | ⟨0, _⟩ => rfl | ⟨1, _⟩ => rfl)
  have er : ridx_main_v37 (ix2 t f) k = ix2 k f :=
    funext fun a => Fin.ext (by match a with | ⟨0, _⟩ => rfl | ⟨1, _⟩ => rfl)
  rw [el, er]

/-- The shared up projection `x · swu` at `(t, f)`. -/
theorem sharedU_apply (t : Fin 4096) (f : Fin 1024) :
    val_main_v45 (F := Ideal) x0 x6 (ix2 t f) = ∑ k : Fin 1024, x0 (ix2 t k) * x6 (ix2 k f) := by
  rw [val_main_v45_apply]
  refine Finset.sum_congr rfl fun k _ => ?_
  have el : lidx_main_v45 (ix2 t f) k = ix2 t k :=
    funext fun a => Fin.ext (by match a with | ⟨0, _⟩ => rfl | ⟨1, _⟩ => rfl)
  have er : ridx_main_v45 (ix2 t f) k = ix2 k f :=
    funext fun a => Fin.ext (by match a with | ⟨0, _⟩ => rfl | ⟨1, _⟩ => rfl)
  rw [el, er]

/-- The shared hidden activation `(g · σ g) · u` at `(t, f)`. -/
theorem sharedH_apply (t : Fin 4096) (f : Fin 1024) :
    val_main_v46 (F := Ideal) x0 x5 x6 (ix2 t f)
      = gated (∑ k : Fin 1024, x0 (ix2 t k) * x5 (ix2 k f)) (∑ k : Fin 1024, x0 (ix2 t k) * x6 (ix2 k f)) := by
  rw [val_main_v46_apply, val_main_v44_apply, val_main_v43_apply, val_main_v42_apply, val_main_cst_6_apply,
    val_main_v41_apply, val_main_v40_apply, val_main_cst_5_apply, val_main_v39_apply, val_main_v38_apply,
    sharedG_apply, sharedU_apply]
  simp only [Ideal.ofBits_def, ofBits_one_f32, Ideal.hostDivf_def, Ideal.addf_def, Ideal.hostUnary_exp_def,
    Ideal.hostNegf_def, Ideal.negf_def, Ideal.mulf_def]
  rfl

/-- The shared part of the output at `(t, d)`. -/
theorem shared_apply (t : Fin 4096) (d : Fin 1024) :
    val_main_v56 (F := Ideal) x0 x5 x6 x7 x8 (ix2 t d) = sharedOut x0 x5 x6 x7 x8 t d := by
  rw [val_main_v56_apply, gate_apply, val_main_v47_apply]
  unfold sharedOut
  simp only [Ideal.mulf_def]
  refine congrArg (fun z : EReal => Ideal.logistic (∑ k : Fin 1024, x0 (ix2 t k) * x8 (ix2 k (0 : Fin 1))) * z)
    (Finset.sum_congr rfl fun f _ => ?_)
  have el : lidx_main_v47 (ix2 t d) f = ix2 t f :=
    funext fun a => Fin.ext (by match a with | ⟨0, _⟩ => rfl | ⟨1, _⟩ => rfl)
  have er : ridx_main_v47 (ix2 t d) f = ix2 f d :=
    funext fun a => Fin.ext (by match a with | ⟨0, _⟩ => rfl | ⟨1, _⟩ => rfl)
  rw [el, er, sharedH_apply]

end Shared

section Routed

variable (x0 : (⟨S4096x1024, .f32⟩ : BufTy).Contents (Elt Ideal))
  (x1 : (⟨S4096x2, .f32⟩ : BufTy).Contents (Elt Ideal))
  (x2 x3 x4 : (⟨S8x1024x1024, .f32⟩ : BufTy).Contents (Elt Ideal))
  (x9 : (⟨S4096x2, .i32⟩ : BufTy).Contents (Elt Ideal))

/-- A word that is not negative is its own normalised index: `a < 0 ? a + 8192 : a` is `a`. -/
theorem normalize_nonneg (a : BitVec 32) (h : 0 ≤ a.toInt) :
    Scalar.select (IntOp.cmpi .slt a 0#32) (IntOp.addi a 8192#32) a = a := by
  have hc : IntOp.cmpi .slt a 0#32 = 0#1 := by
    show BitVec.ofBool (a.slt 0#32) = 0#1
    have : a.slt 0#32 = false := by
      rw [BitVec.slt, BitVec.toInt_zero]
      exact decide_eq_false (by omega)
    rw [this]; rfl
  rw [hc, select_zero]

/-- The flattened ids are the specification's keys. -/
theorem keys_eq : val_main_v0 (F := Ideal) x9 = keysOf x9 := by
  funext i
  rw [val_main_v0_apply]
  exact congrArg x9 (funext fun a => by match a with | ⟨0, _⟩ => rfl | ⟨1, _⟩ => rfl)

/-- The dispatch order is the argsort of the keys. -/
theorem order_eq : val_main_v1 (F := Ideal) x9 = argsort (keysOf x9) := by
  unfold val_main_v1
  rw [keys_eq]
  exact sort2_snd_iota comparator_i32_i32_d0 (fun _ _ => rfl) (keysOf x9)

/-- The return order is the argsort of the dispatch order. -/
theorem inverse_eq : val_main_v24 (F := Ideal) x9 = argsort (argsort (keysOf x9)) := by
  unfold val_main_v24
  rw [order_eq]
  exact sort2_snd_iota comparator_i32_i32_d0 (fun _ _ => rfl) _

/-- The normalised dispatch index of place `r`, as a column. -/
theorem order_col (r : Fin 8192) (z : Fin 1) :
    val_main_v9 (F := Ideal) x9 (ix2 r z) = argsort (keysOf x9) (ix1 r) := by
  have ei : idx_main_v9 (ix2 r z) = ix1 r := funext fun a => by match a with | ⟨0, _⟩ => rfl
  rw [val_main_v9_apply, ei, val_main_v8_apply, val_main_v5_apply, val_main_v7_apply, val_main_v4_apply,
    val_main_c_apply, val_main_v6_apply, val_main_c_0_apply, order_eq]
  exact normalize_nonneg _ (by rw [argsort_toInt (by norm_num)]; exact Int.natCast_nonneg _)

/-- The normalised return index of slot `s`, as a column. -/
theorem inverse_col (s : Fin 8192) (z : Fin 1) :
    val_main_v30 (F := Ideal) x9 (ix2 s z) = argsort (argsort (keysOf x9)) (ix1 s) := by
  have ei : idx_main_v30 (ix2 s z) = ix1 s := funext fun a => by match a with | ⟨0, _⟩ => rfl
  rw [val_main_v30_apply, ei, val_main_v29_apply, val_main_v26_apply, val_main_v28_apply, val_main_v25_apply,
    val_main_c_2_apply, val_main_v27_apply, val_main_c_3_apply, inverse_eq]
  exact normalize_nonneg _ (by rw [argsort_toInt (by norm_num)]; exact Int.natCast_nonneg _)

/-- A row gathered at an argsort's word is the row at that position. -/
theorem argsort_row (keys : Flat.Idx → BitVec 32) (r : Fin 8192) (w : BitVec 32) (hw : w = argsort keys (ix1 r)) :
    (⟨min w.toInt.toNat (8192 - 1), by omega⟩ : Fin 8192) = pos keys r := by
  subst hw
  apply Fin.ext
  show min (argsort keys (ix1 r)).toInt.toNat (8192 - 1) = (pos keys r).val
  rw [argsort_toInt (by norm_num)]
  have h := (pos keys r).isLt
  show min (Int.toNat ((pos keys r).val : Int)) (8192 - 1) = (pos keys r).val
  rw [Int.toNat_natCast]
  omega

/-- Slot `s` of the replicated tokens is token `s / 2`. -/
theorem rep_row (s : Fin 8192) (c : Fin 1024) :
    val_main_v3 (F := Ideal) x0 (ix2 s c) = x0 (ix2 (tokOf s) c) := by
  rw [val_main_v3_apply, val_main_v2_apply]
  refine congrArg x0 (funext fun a => Fin.ext ?_)
  have hs := s.isLt
  have hc := c.isLt
  match a with
  | ⟨0, _⟩ => show (s.val * 1024 + c.val) / 2048 = s.val / 2; omega
  | ⟨1, _⟩ => show (s.val * 1024 + c.val) % 1024 = c.val; omega

/-- The dispatched row at sorted place `r` is the token of the slot sorted there. -/
theorem dispatched_row (r : Fin 8192) (c : Fin 1024) :
    val_main_v10 (F := Ideal) x0 x9 (ix2 r c) = x0 (ix2 (tokOf (ordOf x9 r)) c) := by
  unfold val_main_v10
  show Host.gather (rowsDims 8192 1024 8192 _) _ _ (ix2 r c) = _
  rw [gather_rows_apply (by norm_num), rep_row]
  refine congrArg (fun s => x0 (ix2 (tokOf s) c)) ?_
  exact argsort_row (keysOf x9) r _ (order_col x9 r (0 : Fin 1))

end Routed

section Experts

variable (x0 : (⟨S4096x1024, .f32⟩ : BufTy).Contents (Elt Ideal))
  (x1 : (⟨S4096x2, .f32⟩ : BufTy).Contents (Elt Ideal))
  (x2 x3 x4 : (⟨S8x1024x1024, .f32⟩ : BufTy).Contents (Elt Ideal))
  (x9 : (⟨S4096x2, .i32⟩ : BufTy).Contents (Elt Ideal))

/-- The grouped rows: expert `e`'s row `c` is the dispatched row at place `1024 e + c`. -/
theorem xs_apply (e : Fin 8) (c k : Fin 1024) :
    val_main_v11 (F := Ideal) x0 x9 (ix3 e c k) = x0 (ix2 (tokOf (ordOf x9 (place e c))) k) := by
  have ei : idx_main_v11 (ix3 e c k) = ix2 (place e c) k := funext fun a => Fin.ext (by
    have he := e.isLt
    have hc := c.isLt
    have hk := k.isLt
    match a with
    | ⟨0, _⟩ => show ((e.val * 1024 + c.val) * 1024 + k.val) / 1024 = e.val * 1024 + c.val; omega
    | ⟨1, _⟩ => show ((e.val * 1024 + c.val) * 1024 + k.val) % 1024 = k.val; omega)
  rw [val_main_v11_apply, ei, dispatched_row]

/-- Expert `e`'s gate projection of its row `c`. -/
theorem expertG_apply (e : Fin 8) (c f : Fin 1024) :
    val_main_v12 (F := Ideal) x0 x2 x9 (ix3 e c f)
      = ∑ k : Fin 1024, x0 (ix2 (tokOf (ordOf x9 (place e c))) k) * x2 (ix3 e k f) := by
  rw [val_main_v12_apply]
  refine Finset.sum_congr rfl fun k _ => ?_
  have el : lidx_main_v12 (ix3 e c f) k = ix3 e c k :=
    funext fun a => Fin.ext (by match a with | ⟨0, _⟩ => rfl | ⟨1, _⟩ => rfl | ⟨2, _⟩ => rfl)
  have er : ridx_main_v12 (ix3 e c f) k = ix3 e k f :=
    funext fun a => Fin.ext (by match a with | ⟨0, _⟩ => rfl | ⟨1, _⟩ => rfl | ⟨2, _⟩ => rfl)
  rw [el, er, xs_apply]

/-- Expert `e`'s up projection of its row `c`. -/
theorem expertU_apply (e : Fin 8) (c f : Fin 1024) :
    val_main_v20 (F := Ideal) x0 x3 x9 (ix3 e c f)
      = ∑ k : Fin 1024, x0 (ix2 (tokOf (ordOf x9 (place e c))) k) * x3 (ix3 e k f) := by
  rw [val_main_v20_apply]
  refine Finset.sum_congr rfl fun k _ => ?_
  have el : lidx_main_v20 (ix3 e c f) k = ix3 e c k :=
    funext fun a => Fin.ext (by match a with | ⟨0, _⟩ => rfl | ⟨1, _⟩ => rfl | ⟨2, _⟩ => rfl)
  have er : ridx_main_v20 (ix3 e c f) k = ix3 e k f :=
    funext fun a => Fin.ext (by match a with | ⟨0, _⟩ => rfl | ⟨1, _⟩ => rfl | ⟨2, _⟩ => rfl)
  rw [el, er, xs_apply]

/-- Expert `e`'s hidden activation `(g · σ g) · u` of its row `c`. -/
theorem expertH_apply (e : Fin 8) (c f : Fin 1024) :
    val_main_v21 (F := Ideal) x0 x2 x3 x9 (ix3 e c f)
      = gated (∑ k : Fin 1024, x0 (ix2 (tokOf (ordOf x9 (place e c))) k) * x2 (ix3 e k f))
          (∑ k : Fin 1024, x0 (ix2 (tokOf (ordOf x9 (place e c))) k) * x3 (ix3 e k f)) := by
  rw [val_main_v21_apply, val_main_v19_apply, val_main_v18_apply, val_main_v17_apply, val_main_cst_1_apply,
    val_main_v16_apply, val_main_v15_apply, val_main_cst_apply, val_main_v14_apply, val_main_v13_apply,
    expertG_apply, expertU_apply]
  simp only [Ideal.ofBits_def, ofBits_one_f32, Ideal.hostDivf_def, Ideal.addf_def, Ideal.hostUnary_exp_def,
    Ideal.hostNegf_def, Ideal.negf_def, Ideal.mulf_def]
  rfl

/-- Expert `e`'s output for its row `c`. -/
theorem expert_apply (e : Fin 8) (c d : Fin 1024) :
    val_main_v22 (F := Ideal) x0 x2 x3 x4 x9 (ix3 e c d) = expertOut x0 x2 x3 x4 (ordOf x9) e c d := by
  rw [val_main_v22_apply]
  unfold expertOut
  refine Finset.sum_congr rfl fun f _ => ?_
  have el : lidx_main_v22 (ix3 e c d) f = ix3 e c f :=
    funext fun a => Fin.ext (by match a with | ⟨0, _⟩ => rfl | ⟨1, _⟩ => rfl | ⟨2, _⟩ => rfl)
  have er : ridx_main_v22 (ix3 e c d) f = ix3 e f d :=
    funext fun a => Fin.ext (by match a with | ⟨0, _⟩ => rfl | ⟨1, _⟩ => rfl | ⟨2, _⟩ => rfl)
  rw [el, er, expertH_apply]

/-- The experts' outputs, flattened: place `r` is expert `r / 1024`'s row `r % 1024`. -/
theorem y_row (r : Fin 8192) (d : Fin 1024) :
    val_main_v23 (F := Ideal) x0 x2 x3 x4 x9 (ix2 r d) = expertOut x0 x2 x3 x4 (ordOf x9) (expOf r) (rowOf r) d := by
  have ei : idx_main_v23 (ix2 r d) = ix3 (expOf r) (rowOf r) d := funext fun a => Fin.ext (by
    have hr := r.isLt
    have hd := d.isLt
    match a with
    | ⟨0, _⟩ => show (r.val * 1024 + d.val) / 1048576 = r.val / 1024; omega
    | ⟨1, _⟩ => show (r.val * 1024 + d.val) / 1024 % 1024 = r.val % 1024; omega
    | ⟨2, _⟩ => show (r.val * 1024 + d.val) % 1024 = d.val; omega)
  rw [val_main_v23_apply, ei, expert_apply]

/-- The returned row of slot `s` is the expert output at the slot's sorted place. -/
theorem returned_row (s : Fin 8192) (d : Fin 1024) :
    val_main_v31 (F := Ideal) x0 x2 x3 x4 x9 (ix2 s d)
      = expertOut x0 x2 x3 x4 (ordOf x9) (expOf (invOf x9 s)) (rowOf (invOf x9 s)) d := by
  unfold val_main_v31
  show Host.gather (rowsDims 8192 1024 8192 _) _ _ (ix2 s d) = _
  rw [gather_rows_apply (by norm_num), y_row]
  refine congrArg (fun r => expertOut x0 x2 x3 x4 (ordOf x9) (expOf r) (rowOf r) d) ?_
  exact argsort_row (argsort (keysOf x9)) s _ (inverse_col x9 s (0 : Fin 1))

/-- The routed part of the output at `(t, d)`. -/
theorem routed_apply (t : Fin 4096) (d : Fin 1024) :
    val_main_v36 (F := Ideal) x0 x1 x2 x3 x4 x9 (ix2 t d)
      = routed x0 x1 x2 x3 x4 (ordOf x9) (invOf x9) t d := by
  rw [val_main_v36_apply, val_main_cst_4_apply, Ideal.ofBits_def, Ideal.ofBits_zero_f32, zero_add]
  unfold routed
  refine Finset.sum_congr rfl fun k _ => ?_
  have ei : idx_main_v36 (ix2 t d) k = ix3 t k d :=
    funext fun a => Fin.ext (by match a with | ⟨0, _⟩ => rfl | ⟨1, _⟩ => rfl | ⟨2, _⟩ => rfl)
  have e32 : idx_main_v32 (ix3 t k d) = ix2 (slot t k) d := funext fun a => Fin.ext (by
    have ht := t.isLt
    have hk := k.isLt
    have hd := d.isLt
    match a with
    | ⟨0, _⟩ => show ((t.val * 2 + k.val) * 1024 + d.val) / 1024 = t.val * 2 + k.val; omega
    | ⟨1, _⟩ => show ((t.val * 2 + k.val) * 1024 + d.val) % 1024 = d.val; omega)
  have e34 : idx_main_v33 (idx_main_v34 (ix3 t k d)) = ix2 t k :=
    funext fun a => Fin.ext (by match a with | ⟨0, _⟩ => rfl | ⟨1, _⟩ => rfl)
  rw [ei, val_main_v35_apply, val_main_v32_apply, e32, returned_row, val_main_v34_apply, val_main_v33_apply, e34]
  rfl

end Experts

/-- The reference program's result is the specification function of its arguments. -/
theorem ref_is_spec (x0 : (⟨S4096x1024, .f32⟩ : BufTy).Contents (Elt Ideal))
    (x1 : (⟨S4096x2, .f32⟩ : BufTy).Contents (Elt Ideal))
    (x2 x3 x4 : (⟨S8x1024x1024, .f32⟩ : BufTy).Contents (Elt Ideal))
    (x5 x6 x7 : (⟨S1024x1024, .f32⟩ : BufTy).Contents (Elt Ideal))
    (x8 : (⟨S1024x1, .f32⟩ : BufTy).Contents (Elt Ideal))
    (x9 : (⟨S4096x2, .i32⟩ : BufTy).Contents (Elt Ideal)) :
    val_main_v57 (F := Ideal) x0 x1 x2 x3 x4 x5 x6 x7 x8 x9 = Cert.MoeSpec.out x0 x1 x2 x3 x4 x5 x6 x7 x8 x9 := by
  funext i
  obtain ⟨t, d, rfl⟩ : ∃ (t : Fin 4096) (d : Fin 1024), i = ix2 t d := ⟨i 0, i 1, eq_ix2 i⟩
  rw [val_main_v57_apply, routed_apply, shared_apply]
  rfl

/-- The run's result term is the specification function of the argument buffers. -/
theorem res_is_spec (m : (ℓ : Loc nD τ sig) → Buf (Elt Ideal) ℓ) (c : Dev nD) :
    Cert.ReferenceIdeal.Value.res_main_v57 m c
      = Cert.MoeSpec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  rw [val_main_v57_eq, ref_is_spec]

end Cert.RefSpec

end
-- ==== Proof.lean ====
/-
  A mixture-of-experts layer: routed per-expert gated maps plus a shared gated map, as a two-region kernel program
  against its array-language reference, equal on the extended reals.

  Both programs sort the 8192 routing slots by expert id. The reference repeats every token twice, gathers the rows in
  sorted order, runs the eight experts as batched contractions, gathers the result rows back through the sort of the
  sorting permutation, weights each token's two rows and adds them. The kernel program gathers token `order / 2`
  directly, folds the routing weight of the slot sorted at each place into the first region's output, gathers back
  the same way and adds the two rows unweighted. The two agree because the second sort inverts the first: the slot
  sorted at the sorted place of slot s is s, so the weight the kernel folded in at that place is the weight the
  reference multiplies by. Everything else is the same sums in the same order: a kernel matrix product into a zero
  accumulator is the host contraction, a change of float format is the identity, the sigmoid is one function on both
  sides, and the block-by-block regions are restrictions of one whole-array function each. No law that needs finite
  inputs is used, so the precondition is never opened.

  The three frames are the generated ones (the reference's is its generated run with the result dropped); the
  idealization rewrote nothing, so it is preserved trivially.
-/
import proofs.«157043_j62388694942421_2_alg».proof.Defs
import proofs.«157043_j62388694942421_2_alg».proof.Proof.Gen.Kernel
import proofs.«157043_j62388694942421_2_alg».proof.Proof.Gen.Kernel.Skeleton
import proofs.«157043_j62388694942421_2_alg».proof.Proof.Gen.Kernel.Launch
import proofs.«157043_j62388694942421_2_alg».proof.Proof.Gen.Kernel.Points
import proofs.«157043_j62388694942421_2_alg».proof.Proof.Gen.Kernel.Frame
import proofs.«157043_j62388694942421_2_alg».proof.Proof.Gen.KernelIdeal
import proofs.«157043_j62388694942421_2_alg».proof.Proof.Gen.KernelIdeal.Skeleton
import proofs.«157043_j62388694942421_2_alg».proof.Proof.Gen.KernelIdeal.Launch
import proofs.«157043_j62388694942421_2_alg».proof.Proof.Gen.KernelIdeal.Points
import proofs.«157043_j62388694942421_2_alg».proof.Proof.Gen.KernelIdeal.Frame
import proofs.«157043_j62388694942421_2_alg».proof.Proof.Gen.ReferenceIdeal
import proofs.«157043_j62388694942421_2_alg».proof.Proof.Gen.Pre_finite_inputs
import proofs.«157043_j62388694942421_2_alg».proof.Proof.Gen.ReferenceIdeal.Run
import proofs.«157043_j62388694942421_2_alg».proof.Proof.Gen.ReferenceIdeal.Read
import proofs.«157043_j62388694942421_2_alg».proof.Proof.KRun
import proofs.«157043_j62388694942421_2_alg».proof.Proof.KValue
import proofs.«157043_j62388694942421_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the layer's specification of their (agreeing) argument arrays. -/
theorem algebraic : Cert.algebraic_KernelIdeal_ReferenceIdeal := by
  intro m ρ m' ρ' _ hagree
  refine ⟨fun c => Cert.MoeSpec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelValue.kernel_value m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.RefSpec.res_is_spec, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
